-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4x1024 : Shape := ⟨3, ![16384, 4, 1024]⟩
abbrev S4x1024 : Shape := ⟨2, ![4, 1024]⟩
abbrev S1024x512 : Shape := ⟨2, ![1024, 512]⟩
abbrev S512 : Shape := ⟨1, ![512]⟩
abbrev S512x3 : Shape := ⟨2, ![512, 3]⟩
abbrev S3 : Shape := ⟨1, ![3]⟩
abbrev S16384 : Shape := ⟨1, ![16384]⟩
abbrev S16384x4 : Shape := ⟨2, ![16384, 4]⟩
abbrev S_ : Shape := ⟨0, ![]⟩

class Facts : Prop where
  bcast_S_S16384x4x1024 : S_.BroadcastsInDim S16384x4x1024 (![] : Fin 0 → Fin S16384x4x1024.rank)
  reducesTo_S16384x4x1024_S_d0_1_2 : S16384x4x1024.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x3 : S_.BroadcastsInDim S512x3 (![] : Fin 0 → Fin S512x3.rank)
  reducesTo_S512x3_S_d0_1 : S512x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S512x3 .f32) (main_arg5 : FVec F S3 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x3 .f32 := Host.absf main_arg4
  let main_cst_6 : FVec F S_ .f32 := constant S_ .f32 0x7F800000#32
  let main_v20 : FVec F S512x3 .f32 := broadcastInDim S512x3 ![] bcast_S_S512x3 main_cst_6
  let main_v21 : IVec S512x3 1 := cmpf .olt main_v19 main_v20
  let main_c_7 : IVec S_ 1 := constantI S_ 1 1#1
  let main_v22 : IVec S_ 1 := (fun x v => Host.reduce IntOp.andi x v reducesTo_S512x3_S_d0_1 h_S_) main_v21 main_c_7
  let main_v23 : IVec S_ 1 := andi main_v18 main_v22
  let main_v24 : FVec F S3 .f32 := Host.absf main_arg5
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  main_v28

def fn {F : FTy → Type} [FloatOps F] (main_arg0 : FVec F S16384x4x1024 .f32) (main_arg1 : FVec F S4x1024 .f32) (main_arg2 : FVec F S1024x512 .f32) (main_arg3 : FVec F S512 .f32) (main_arg4 : FVec F S512x3 .f32) (main_arg5 : FVec F S3 .f32) (main_arg6 : IVec S16384 32) (main_arg7 : IVec S16384x4 32) : IVec S_ 1 :=
  let main_v0 : FVec F S16384x4x1024 .f32 := Host.absf main_arg0
  let main_cst : FVec F S_ .f32 := constant S_ .f32 0x7F800000#32
  let main_v1 : FVec F S16384x4x1024 .f32 := broadcastInDim S16384x4x1024 ![] bcast_S_S16384x4x1024 main_cst
  let main_v2 : IVec S16384x4x1024 1 := cmpf .olt main_v0 main_v1
  let main_c : IVec S_ 1 := constantI S_ 1 1#1
  let main_v3 : IVec S_ 1 := (fun x v => Host.reduce IntOp.andi x v reducesTo_S16384x4x1024_S_d0_1_2 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S16384x4x1024 : Shape := ⟨3, ![16384, 4, 1024]⟩
abbrev S4x1024 : Shape := ⟨2, ![4, 1024]⟩
abbrev S1024x512 : Shape := ⟨2, ![1024, 512]⟩
abbrev S512 : Shape := ⟨1, ![512]⟩
abbrev S512x3 : Shape := ⟨2, ![512, 3]⟩
abbrev S3 : Shape := ⟨1, ![3]⟩
abbrev S16384 : Shape := ⟨1, ![16384]⟩
abbrev S16384x4 : Shape := ⟨2, ![16384, 4]⟩
abbrev S16384x4x1 : Shape := ⟨3, ![16384, 4, 1]⟩
abbrev S16384x1x4 : Shape := ⟨3, ![16384, 1, 4]⟩
abbrev S16384x4x4 : Shape := ⟨3, ![16384, 4, 4]⟩
abbrev S_ : Shape := ⟨0, ![]⟩
abbrev S4x4 : Shape := ⟨2, ![4, 4]⟩
abbrev S1x4x4 : Shape := ⟨3, ![1, 4, 4]⟩
abbrev S4 : Shape := ⟨1, ![4]⟩
abbrev S1x4 : Shape := ⟨2, ![1, 4]⟩
abbrev S16384x1 : Shape := ⟨2, ![16384, 1]⟩
abbrev S1x1x4 : Shape := ⟨3, ![1, 1, 4]⟩
abbrev S65536x4 : Shape := ⟨2, ![65536, 4]⟩
abbrev S4x512 : Shape := ⟨2, ![4, 512]⟩
abbrev S16384x4x3 : Shape := ⟨3, ![16384, 4, 3]⟩
abbrev S256x4x1024 : Shape := ⟨3, ![256, 4, 1024]⟩
abbrev S256x4 : Shape := ⟨2, ![256, 4]⟩
abbrev S1024x4 : Shape := ⟨2, ![1024, 4]⟩
abbrev S256x4x3 : Shape := ⟨3, ![256, 4, 3]⟩
abbrev S256x4x1 : Shape := ⟨3, ![256, 4, 1]⟩
abbrev S1024x1024 : Shape := ⟨2, ![1024, 1024]⟩
abbrev S1x512 : Shape := ⟨2, ![1, 512]⟩
abbrev S1024x3 : Shape := ⟨2, ![1024, 3]⟩
abbrev S1x3 : Shape := ⟨2, ![1, 3]⟩

abbrev nBuf : Space → Nat
  | .hbm => 58
  | .vmem => 13
  | .smem => 0
  | _ => 0

abbrev bufTy : (tb : Table) → Fin (tcTables nBuf tb) → BufTy
  | .hbm, ⟨0, _⟩ => ⟨S16384x4x1024, .f32⟩
  | .hbm, ⟨1, _⟩ => ⟨S4x1024, .f32⟩
  | .hbm, ⟨2, _⟩ => ⟨S1024x512, .f32⟩
  | .hbm, ⟨3, _⟩ => ⟨S512, .f32⟩
  | .hbm, ⟨4, _⟩ => ⟨S512x3, .f32⟩
  | .hbm, ⟨5, _⟩ => ⟨S3, .f32⟩
  | .hbm, ⟨6, _⟩ => ⟨S16384, .i32⟩
  | .hbm, ⟨7, _⟩ => ⟨S16384x4, .i32⟩
  | .hbm, ⟨8, _⟩ => ⟨S16384x4x1, .i32⟩
  | .hbm, ⟨9, _⟩ => ⟨S16384x1x4, .i32⟩
  | .hbm, ⟨10, _⟩ => ⟨S16384x4x4, .i32⟩
  | .hbm, ⟨11, _⟩ => ⟨S16384x4x4, .i32⟩
  | .hbm, ⟨12, _⟩ => ⟨S16384x4x4, .i1⟩
  | .hbm, ⟨13, _⟩ => ⟨S_, .i1⟩
  | .hbm, ⟨14, _⟩ => ⟨S4x4, .i1⟩
  | .hbm, ⟨15, _⟩ => ⟨S4x4, .i32⟩
  | .hbm, ⟨16, _⟩ => ⟨S_, .i32⟩
  | .hbm, ⟨17, _⟩ => ⟨S4x4, .i32⟩
  | .hbm, ⟨18, _⟩ => ⟨S4x4, .i32⟩
  | .hbm, ⟨19, _⟩ => ⟨S4x4, .i32⟩
  | .hbm, ⟨20, _⟩ => ⟨S4x4, .i1⟩
  | .hbm, ⟨21, _⟩ => ⟨S_, .i1⟩
  | .hbm, ⟨22, _⟩ => ⟨S4x4, .i1⟩
  | .hbm, ⟨23, _⟩ => ⟨S4x4, .i1⟩
  | .hbm, ⟨24, _⟩ => ⟨S1x4x4, .i1⟩
  | .hbm, ⟨25, _⟩ => ⟨S16384x4x4, .i1⟩
  | .hbm, ⟨26, _⟩ => ⟨S16384x4x4, .i1⟩
  | .hbm, ⟨27, _⟩ => ⟨S16384x4x4, .i32⟩
  | .hbm, ⟨28, _⟩ => ⟨S_, .i32⟩
  | .hbm, ⟨29, _⟩ => ⟨S16384x4, .i32⟩
  | .hbm, ⟨30, _⟩ => ⟨S_, .i32⟩
  | .hbm, ⟨31, _⟩ => ⟨S16384x4, .i32⟩
  | .hbm, ⟨32, _⟩ => ⟨S16384x4, .i1⟩
  | .hbm, ⟨33, _⟩ => ⟨S4, .i32⟩
  | .hbm, ⟨34, _⟩ => ⟨S1x4, .i32⟩
  | .hbm, ⟨35, _⟩ => ⟨S16384x1, .i32⟩
  | .hbm, ⟨36, _⟩ => ⟨S16384x4, .i32⟩
  | .hbm, ⟨37, _⟩ => ⟨S16384x4, .i32⟩
  | .hbm, ⟨38, _⟩ => ⟨S16384x4, .i1⟩
  | .hbm, ⟨39, _⟩ => ⟨S16384x4, .f32⟩
  | .hbm, ⟨40, _⟩ => ⟨S16384x4x1, .i32⟩
  | .hbm, ⟨41, _⟩ => ⟨S1x1x4, .i32⟩
  | .hbm, ⟨42, _⟩ => ⟨S16384x4x4, .i32⟩
  | .hbm, ⟨43, _⟩ => ⟨S16384x4x4, .i32⟩
  | .hbm, ⟨44, _⟩ => ⟨S16384x4x4, .i1⟩
  | .hbm, ⟨45, _⟩ => ⟨S16384x4x4, .f32⟩
  | .hbm, ⟨46, _⟩ => ⟨S16384x4, .i1⟩
  | .hbm, ⟨47, _⟩ => ⟨S16384x4, .f32⟩
  | .hbm, ⟨48, _⟩ => ⟨S16384x4x1, .f32⟩
  | .hbm, ⟨49, _⟩ => ⟨S16384x4x4, .f32⟩
  | .hbm, ⟨50, _⟩ => ⟨S16384x4x4, .f32⟩
  | .hbm, ⟨51, _⟩ => ⟨S65536x4, .f32⟩
  | .hbm, ⟨52, _⟩ => ⟨S65536x4, .bf16⟩
  | .hbm, ⟨53, _⟩ => ⟨S4x512, .f32⟩
  | .hbm, ⟨54, _⟩ => ⟨S4x512, .bf16⟩
  | .hbm, ⟨55, _⟩ => ⟨S1024x512, .bf16⟩
  | .hbm, ⟨56, _⟩ => ⟨S512x3, .bf16⟩
  | .hbm, ⟨57, _⟩ => ⟨S16384x4x3, .f32⟩
  | .local _ .vmem, ⟨0, _⟩ => ⟨S256x4x1024, .f32⟩
  | .local _ .vmem, ⟨1, _⟩ => ⟨S256x4x1024, .f32⟩
  | .local _ .vmem, ⟨2, _⟩ => ⟨S256x4, .f32⟩
  | .local _ .vmem, ⟨3, _⟩ => ⟨S256x4, .f32⟩
  | .local _ .vmem, ⟨4, _⟩ => ⟨S1024x4, .bf16⟩
  | .local _ .vmem, ⟨5, _⟩ => ⟨S1024x4, .bf16⟩
  | .local _ .vmem, ⟨6, _⟩ => ⟨S4x512, .bf16⟩
  | .local _ .vmem, ⟨7, _⟩ => ⟨S1024x512, .bf16⟩
  | .local _ .vmem, ⟨8, _⟩ => ⟨S512, .f32⟩
  | .local _ .vmem, ⟨9, _⟩ => ⟨S512x3, .bf16⟩
  | .local _ .vmem, ⟨10, _⟩ => ⟨S3, .f32⟩
  | .local _ .vmem, ⟨11, _⟩ => ⟨S256x4x3, .f32⟩
  | .local _ .vmem, ⟨12, _⟩ => ⟨S256x4x3, .f32⟩
  | _, _ => ⟨S16384x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_0 : Ref sig .tc := ⟨.hbm, 21, rfl⟩
abbrev main_call0_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x3 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S16384x4_S16384x4x1_0_1 : S16384x4.BroadcastsInDim S16384x4x1 (![0, 1] : Fin 2 → Fin S16384x4x1.rank)
  bcast_S16384x4_S16384x1x4_0_2 : S16384x4.BroadcastsInDim S16384x1x4 (![0, 2] : Fin 2 → Fin S16384x1x4.rank)
  bcast_S16384x4x1_S16384x4x4_0_1_2 : S16384x4x1.BroadcastsInDim S16384x4x4 (![0, 1, 2] : Fin 3 → Fin S16384x4x4.rank)
  bcast_S16384x1x4_S16384x4x4_0_1_2 : S16384x1x4.BroadcastsInDim S16384x4x4 (![0, 1, 2] : Fin 3 → Fin S16384x4x4.rank)
  bcast_S_S4x4 : S_.BroadcastsInDim S4x4 (![] : Fin 0 → Fin S4x4.rank)
  bcast_S4x4_S1x4x4_1_2 : S4x4.BroadcastsInDim S1x4x4 (![1, 2] : Fin 2 → Fin S1x4x4.rank)
  bcast_S1x4x4_S16384x4x4_0_1_2 : S1x4x4.BroadcastsInDim S16384x4x4 (![0, 1, 2] : Fin 3 → Fin S16384x4x4.rank)
  natLt_1_32 : 1 < 32
  reducesTo_S16384x4x4_S16384x4_d2 : S16384x4x4.ReducesTo [2] S16384x4
  h_S_ : 0 < S_.numel
  bcast_S_S16384x4 : S_.BroadcastsInDim S16384x4 (![] : Fin 0 → Fin S16384x4.rank)
  bcast_S4_S1x4_1 : S4.BroadcastsInDim S1x4 (![1] : Fin 1 → Fin S1x4.rank)
  bcast_S16384_S16384x1_0 : S16384.BroadcastsInDim S16384x1 (![0] : Fin 1 → Fin S16384x1.rank)
  bcast_S1x4_S16384x4_0_1 : S1x4.BroadcastsInDim S16384x4 (![0, 1] : Fin 2 → Fin S16384x4.rank)
  bcast_S16384x1_S16384x4_0_1 : S16384x1.BroadcastsInDim S16384x4 (![0, 1] : Fin 2 → Fin S16384x4.rank)
  bcast_S1x1x4_S16384x4x4_0_1_2 : S1x1x4.BroadcastsInDim S16384x4x4 (![0, 1, 2] : Fin 3 → Fin S16384x4x4.rank)
  shapeCasts_S16384x4x4_S65536x4 : S16384x4x4.ShapeCasts S65536x4
  bitsLt_bf16_f32 : FTy.bits .bf16 < FTy.bits .f32
  inb_S256x4x1024_S256x4x1024_0_0_0 : ∀ a, (![0, 0, 0] : Fin 3 → Nat) a + S256x4x1024.size a ≤ S256x4x1024.size a
  h_S256x4x1024 : 0 < S256x4x1024.numel
  inb_S256x4_S256x4_0_0 : ∀ a, (![0, 0] : Fin 2 → Nat) a + S256x4.size a ≤ S256x4.size a
  h_S256x4 : 0 < S256x4.numel
  shapeCasts_S256x4_S256x4 : S256x4.ShapeCasts S256x4
  shapeCasts_S256x4_S256x4x1 : S256x4.ShapeCasts S256x4x1
  broadcasts_S256x4x1_S256x4x1024 : S256x4x1.Broadcasts S256x4x1024
  shapeCasts_S256x4x1024_S1024x1024 : S256x4x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x3_S512x3_0_0 : ∀ a, (![0, 0] : Fin 2 → Nat) a + S512x3.size a ≤ S512x3.size a
  h_S512x3 : 0 < S512x3.numel
  shapeCasts_S512x3_S512x3 : S512x3.ShapeCasts S512x3
  inb_S3_S3_0 : ∀ a, (![0] : Fin 1 → Nat) a + S3.size a ≤ S3.size a
  h_S3 : 0 < S3.numel
  shapeCasts_S3_S1x3 : S3.ShapeCasts S1x3
  broadcasts_S1x3_S1024x3 : S1x3.Broadcasts S1024x3
  shapeCasts_S1024x3_S256x4x3 : S1024x3.ShapeCasts S256x4x3
  inb_S256x4x3_S256x4x3_0_0_0 : ∀ a, (![0, 0, 0] : Fin 3 → Nat) a + S256x4x3.size a ≤ S256x4x3.size a
  h_S256x4x3 : 0 < S256x4x3.numel
  dot_S4x1024_S1024x512_S4x512_1_0_0_1_n_n_wf : DotDims.WF S4x1024 S1024x512 S4x512 [1] [0] [0] [1] [] []
  dot_S1024x1024_S1024x512_S1024x512_1_0_0_1_n_n_wf : DotDims.WF S1024x1024 S1024x512 S1024x512 [1] [0] [0] [1] [] []
  dot_S1024x4_S4x512_S1024x512_1_0_0_1_n_n_wf : DotDims.WF S1024x4 S4x512 S1024x512 [1] [0] [0] [1] [] []
  dot_S1024x512_S512x3_S1024x3_1_0_0_1_n_n_wf : DotDims.WF S1024x512 S512x3 S1024x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4x1024.size a ≤ S16384x4x1024.size a
  hwx0_0 : ∀ i : grid0.Coords, EltTy.bits .f32 = 32 ∨ (Rect.block (s := S16384x4x1024) S256x4x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4.size a ≤ S16384x4.size a
  hwx0_1 : ∀ i : grid0.Coords, EltTy.bits .f32 = 32 ∨ (Rect.block (s := S16384x4) S256x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4.size a ≤ S65536x4.size a
  hwx0_2 : ∀ i : grid0.Coords, EltTy.bits .bf16 = 32 ∨ (Rect.block (s := S65536x4) S1024x4.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x512.size a ≤ S4x512.size a
  hwx0_3 : ∀ i : grid0.Coords, EltTy.bits .bf16 = 32 ∨ (Rect.block (s := S4x512) S4x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x3.size a ≤ S512x3.size a
  hwx0_6 : ∀ i : grid0.Coords, EltTy.bits .bf16 = 32 ∨ (Rect.block (s := S512x3) S512x3.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3.size a ≤ S3.size a
  hwx0_7 : ∀ i : grid0.Coords, EltTy.bits .f32 = 32 ∨ (Rect.block (s := S3) S3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x4x3.size a ≤ S16384x4x3.size a
  hwx0_8 : ∀ i : grid0.Coords, EltTy.bits .f32 = 32 ∨ (Rect.block (s := S16384x4x3) S256x4x3.size (cc0_transform_8 i) (hinb0_8 i)).WholeWords (EltTy.packing .f32)

variable [Facts₀]

def dot_S4x1024_S1024x512_S4x512_1_0_0_1_n_n : DotDims S4x1024 S1024x512 S4x512 where
  lhsContracting := [1]
  rhsContracting := [0]
  lhsNonContracting := [0]
  rhsNonContracting := [1]
  lhsBatch := []
  rhsBatch := []
  wf := dot_S4x1024_S1024x512_S4x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x4_S4x512_S1024x512_1_0_0_1_n_n : DotDims S1024x4 S4x512 S1024x512 where
  lhsContracting := [1]
  rhsContracting := [0]
  lhsNonContracting := [0]
  rhsNonContracting := [1]
  lhsBatch := []
  rhsBatch := []
  wf := dot_S1024x4_S4x512_S1024x512_1_0_0_1_n_n_wf
def dot_S1024x512_S512x3_S1024x3_1_0_0_1_n_n : DotDims S1024x512 S512x3 S1024x3 where
  lhsContracting := [1]
  rhsContracting := [0]
  lhsNonContracting := [0]
  rhsNonContracting := [1]
  lhsBatch := []
  rhsBatch := []
  wf := dot_S1024x512_S512x3_S1024x3_1_0_0_1_n_n_wf

abbrev win0_0 : Pipeline.Window sig grid0 :=
  Pipeline.Window.ofSpec (Memref.whole main_arg0) S256x4x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S256x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1024x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S4x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S512x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S256x4x3.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x4x1024 : Shape := ⟨3, ![16384, 4, 1024]⟩
abbrev S4x1024 : Shape := ⟨2, ![4, 1024]⟩
abbrev S1024x512 : Shape := ⟨2, ![1024, 512]⟩
abbrev S512 : Shape := ⟨1, ![512]⟩
abbrev S512x3 : Shape := ⟨2, ![512, 3]⟩
abbrev S3 : Shape := ⟨1, ![3]⟩
abbrev S16384 : Shape := ⟨1, ![16384]⟩
abbrev S16384x4 : Shape := ⟨2, ![16384, 4]⟩
abbrev S16384x4x1 : Shape := ⟨3, ![16384, 4, 1]⟩
abbrev S16384x1x4 : Shape := ⟨3, ![16384, 1, 4]⟩
abbrev S16384x4x4 : Shape := ⟨3, ![16384, 4, 4]⟩
abbrev S_ : Shape := ⟨0, ![]⟩
abbrev S4x4 : Shape := ⟨2, ![4, 4]⟩
abbrev S1x4x4 : Shape := ⟨3, ![1, 4, 4]⟩
abbrev S4 : Shape := ⟨1, ![4]⟩
abbrev S1x4 : Shape := ⟨2, ![1, 4]⟩
abbrev S16384x1 : Shape := ⟨2, ![16384, 1]⟩
abbrev S16384x4x512 : Shape := ⟨3, ![16384, 4, 512]⟩
abbrev S1x1x512 : Shape := ⟨3, ![1, 1, 512]⟩
abbrev S16384x4x3 : Shape := ⟨3, ![16384, 4, 3]⟩
abbrev S1x1x3 : Shape := ⟨3, ![1, 1, 3]⟩

abbrev nBuf : Space → Nat
  | .hbm => 70
  | .vmem => 0
  | .smem => 0
  | _ => 0

abbrev bufTy : (tb : Table) → Fin (tcTables nBuf tb) → BufTy
  | .hbm, ⟨0, _⟩ => ⟨S16384x4x1024, .f32⟩
  | .hbm, ⟨1, _⟩ => ⟨S4x1024, .f32⟩
  | .hbm, ⟨2, _⟩ => ⟨S1024x512, .f32⟩
  | .hbm, ⟨3, _⟩ => ⟨S512, .f32⟩
  | .hbm, ⟨4, _⟩ => ⟨S512x3, .f32⟩
  | .hbm, ⟨5, _⟩ => ⟨S3, .f32⟩
  | .hbm, ⟨6, _⟩ => ⟨S16384, .i32⟩
  | .hbm, ⟨7, _⟩ => ⟨S16384x4, .i32⟩
  | .hbm, ⟨8, _⟩ => ⟨S16384x4x1, .i32⟩
  | .hbm, ⟨9, _⟩ => ⟨S16384x1x4, .i32⟩
  | .hbm, ⟨10, _⟩ => ⟨S16384x4x4, .i32⟩
  | .hbm, ⟨11, _⟩ => ⟨S16384x4x4, .i32⟩
  | .hbm, ⟨12, _⟩ => ⟨S16384x4x4, .i1⟩
  | .hbm, ⟨13, _⟩ => ⟨S_, .i1⟩
  | .hbm, ⟨14, _⟩ => ⟨S4x4, .i1⟩
  | .hbm, ⟨15, _⟩ => ⟨S4x4, .i32⟩
  | .hbm, ⟨16, _⟩ => ⟨S_, .i32⟩
  | .hbm, ⟨17, _⟩ => ⟨S4x4, .i32⟩
  | .hbm, ⟨18, _⟩ => ⟨S4x4, .i32⟩
  | .hbm, ⟨19, _⟩ => ⟨S4x4, .i32⟩
  | .hbm, ⟨20, _⟩ => ⟨S4x4, .i1⟩
  | .hbm, ⟨21, _⟩ => ⟨S_, .i1⟩
  | .hbm, ⟨22, _⟩ => ⟨S4x4, .i1⟩
  | .hbm, ⟨23, _⟩ => ⟨S4x4, .i1⟩
  | .hbm, ⟨24, _⟩ => ⟨S1x4x4, .i1⟩
  | .hbm, ⟨25, _⟩ => ⟨S16384x4x4, .i1⟩
  | .hbm, ⟨26, _⟩ => ⟨S16384x4x4, .i1⟩
  | .hbm, ⟨27, _⟩ => ⟨S16384x4x4, .i32⟩
  | .hbm, ⟨28, _⟩ => ⟨S_, .i32⟩
  | .hbm, ⟨29, _⟩ => ⟨S16384x4, .i32⟩
  | .hbm, ⟨30, _⟩ => ⟨S_, .i32⟩
  | .hbm, ⟨31, _⟩ => ⟨S16384x4, .i32⟩
  | .hbm, ⟨32, _⟩ => ⟨S16384x4, .i1⟩
  | .hbm, ⟨33, _⟩ => ⟨S16384x4x1, .i1⟩
  | .hbm, ⟨34, _⟩ => ⟨S_, .i32⟩
  | .hbm, ⟨35, _⟩ => ⟨S16384x4, .i32⟩
  | .hbm, ⟨36, _⟩ => ⟨S16384x4, .i1⟩
  | .hbm, ⟨37, _⟩ => ⟨S_, .i32⟩
  | .hbm, ⟨38, _⟩ => ⟨S16384x4, .i32⟩
  | .hbm, ⟨39, _⟩ => ⟨S16384x4, .i32⟩
  | .hbm, ⟨40, _⟩ => ⟨S16384x4, .i32⟩
  | .hbm, ⟨41, _⟩ => ⟨S16384x4x1, .i32⟩
  | .hbm, ⟨42, _⟩ => ⟨S16384x4x1024, .f32⟩
  | .hbm, ⟨43, _⟩ => ⟨S_, .f32⟩
  | .hbm, ⟨44, _⟩ => ⟨S_, .f32⟩
  | .hbm, ⟨45, _⟩ => ⟨S16384x4x1024, .i1⟩
  | .hbm, ⟨46, _⟩ => ⟨S16384x4x1024, .f32⟩
  | .hbm, ⟨47, _⟩ => ⟨S16384x4x1024, .f32⟩
  | .hbm, ⟨48, _⟩ => ⟨S4, .i32⟩
  | .hbm, ⟨49, _⟩ => ⟨S1x4, .i32⟩
  | .hbm, ⟨50, _⟩ => ⟨S16384x1, .i32⟩
  | .hbm, ⟨51, _⟩ => ⟨S16384x4, .i32⟩
  | .hbm, ⟨52, _⟩ => ⟨S16384x4, .i32⟩
  | .hbm, ⟨53, _⟩ => ⟨S16384x4, .i1⟩
  | .hbm, ⟨54, _⟩ => ⟨S16384x4x1, .i1⟩
  | .hbm, ⟨55, _⟩ => ⟨S16384x4x1024, .f32⟩
  | .hbm, ⟨56, _⟩ => ⟨S_, .f32⟩
  | .hbm, ⟨57, _⟩ => ⟨S_, .f32⟩
  | .hbm, ⟨58, _⟩ => ⟨S16384x4x1024, .i1⟩
  | .hbm, ⟨59, _⟩ => ⟨S16384x4x1024, .f32⟩
  | .hbm, ⟨60, _⟩ => ⟨S16384x4x1024, .f32⟩
  | .hbm, ⟨61, _⟩ => ⟨S16384x4x512, .f32⟩
  | .hbm, ⟨62, _⟩ => ⟨S1x1x512, .f32⟩
  | .hbm, ⟨63, _⟩ => ⟨S16384x4x512, .f32⟩
  | .hbm, ⟨64, _⟩ => ⟨S16384x4x512, .f32⟩
  | .hbm, ⟨65, _⟩ => ⟨S16384x4x512, .f32⟩
  | .hbm, ⟨66, _⟩ => ⟨S16384x4x3, .f32⟩
  | .hbm, ⟨67, _⟩ => ⟨S1x1x3, .f32⟩
  | .hbm, ⟨68, _⟩ => ⟨S16384x4x3, .f32⟩
  | .hbm, ⟨69, _⟩ => ⟨S16384x4x3, .f32⟩
  | _, _ => ⟨S16384x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_0 : Ref sig .tc := ⟨.hbm, 21, rfl⟩
abbrev main_call0_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩

abbrev nD : Nat := 1
abbrev τ : Topo := Topo.v7x

variable {F : FTy → Type} [FloatOps F]

class Facts₀ : Prop where
  bcast_S16384x4_S16384x4x1_0_1 : S16384x4.BroadcastsInDim S16384x4x1 (![0, 1] : Fin 2 → Fin S16384x4x1.rank)
  bcast_S16384x4_S16384x1x4_0_2 : S16384x4.BroadcastsInDim S16384x1x4 (![0, 2] : Fin 2 → Fin S16384x1x4.rank)
  bcast_S16384x4x1_S16384x4x4_0_1_2 : S16384x4x1.BroadcastsInDim S16384x4x4 (![0, 1, 2] : Fin 3 → Fin S16384x4x4.rank)
  bcast_S16384x1x4_S16384x4x4_0_1_2 : S16384x1x4.BroadcastsInDim S16384x4x4 (![0, 1, 2] : Fin 3 → Fin S16384x4x4.rank)
  bcast_S_S4x4 : S_.BroadcastsInDim S4x4 (![] : Fin 0 → Fin S4x4.rank)
  bcast_S4x4_S1x4x4_1_2 : S4x4.BroadcastsInDim S1x4x4 (![1, 2] : Fin 2 → Fin S1x4x4.rank)
  bcast_S1x4x4_S16384x4x4_0_1_2 : S1x4x4.BroadcastsInDim S16384x4x4 (![0, 1, 2] : Fin 3 → Fin S16384x4x4.rank)
  natLt_1_32 : 1 < 32
  reducesTo_S16384x4x4_S16384x4_d2 : S16384x4x4.ReducesTo [2] S16384x4
  h_S_ : 0 < S_.numel
  bcast_S_S16384x4 : S_.BroadcastsInDim S16384x4 (![] : Fin 0 → Fin S16384x4.rank)
  bcast_S16384x4x1_S16384x4x1024_0_1_2 : S16384x4x1.BroadcastsInDim S16384x4x1024 (![0, 1, 2] : Fin 3 → Fin S16384x4x1024.rank)
  bcast_S_S16384x4x1024 : S_.BroadcastsInDim S16384x4x1024 (![] : Fin 0 → Fin S16384x4x1024.rank)
  bcast_S4_S1x4_1 : S4.BroadcastsInDim S1x4 (![1] : Fin 1 → Fin S1x4.rank)
  bcast_S16384_S16384x1_0 : S16384.BroadcastsInDim S16384x1 (![0] : Fin 1 → Fin S16384x1.rank)
  bcast_S1x4_S16384x4_0_1 : S1x4.BroadcastsInDim S16384x4 (![0, 1] : Fin 2 → Fin S16384x4.rank)
  bcast_S16384x1_S16384x4_0_1 : S16384x1.BroadcastsInDim S16384x4 (![0, 1] : Fin 2 → Fin S16384x4.rank)
  bcast_S512_S1x1x512_2 : S512.BroadcastsInDim S1x1x512 (![2] : Fin 1 → Fin S1x1x512.rank)
  bcast_S1x1x512_S16384x4x512_0_1_2 : S1x1x512.BroadcastsInDim S16384x4x512 (![0, 1, 2] : Fin 3 → Fin S16384x4x512.rank)
  bcast_S3_S1x1x3_2 : S3.BroadcastsInDim S1x1x3 (![2] : Fin 1 → Fin S1x1x3.rank)
  bcast_S1x1x3_S16384x4x3_0_1_2 : S1x1x3.BroadcastsInDim S16384x4x3 (![0, 1, 2] : Fin 3 → Fin S16384x4x3.rank)
  gather_S4x1024_S16384x4x1_S16384x4x1024_2_0_n_n_0_2_11024_wf : GatherDims.WF S4x1024 S16384x4x1 S16384x4x1024 [2] [0] [] [0] [] 2 ![1, 1024]
  dot_S16384x4x1024_S1024x512_S16384x4x512_2_0_01_1_n_n_wf : DotDims.WF S16384x4x1024 S1024x512 S16384x4x512 [2] [0] [0, 1] [1] [] []
  dot_S16384x4x512_S512x3_S16384x4x3_2_0_01_1_n_n_wf : DotDims.WF S16384x4x512 S512x3 S16384x4x3 [2] [0] [0, 1] [1] [] []

variable [Facts₀]

def gather_S4x1024_S16384x4x1_S16384x4x1024_2_0_n_n_0_2_11024 : GatherDims S4x1024 S16384x4x1 S16384x4x1024 where
  offsetDims := [2]
  collapsedSliceDims := [0]
  operandBatchingDims := []
  startIndicesBatchingDims := []
  startIndexMap := [0]
  indexVectorDim := 2
  sliceSizes := ![1, 1024]
  wf := gather_S4x1024_S16384x4x1_S16384x4x1024_2_0_n_n_0_2_11024_wf
def dot_S16384x4x1024_S1024x512_S16384x4x512_2_0_01_1_n_n : DotDims S16384x4x1024 S1024x512 S16384x4x512 where
  lhsContracting := [2]
  rhsContracting := [0]
  lhsNonContracting := [0, 1]
  rhsNonContracting := [1]
  lhsBatch := []
  rhsBatch := []
  wf := dot_S16384x4x1024_S1024x512_S16384x4x512_2_0_01_1_n_n_wf
def dot_S16384x4x512_S512x3_S16384x4x3_2_0_01_1_n_n : DotDims S16384x4x512 S512x3 S16384x4x3 where
  lhsContracting := [2]
  rhsContracting := [0]
  lhsNonContracting := [0, 1]
  rhsNonContracting := [1]
  lhsBatch := []
  rhsBatch := []
  wf := dot_S16384x4x512_S512x3_S16384x4x3_2_0_01_1_n_n_wf

class Facts : Prop extends Facts₀ where

variable [Facts]
-- ==== Proof.Spec.lean ====
/-
  What the kernel and the reference both compute, as functions of the argument arrays, index by index, on the
  extended reals. Batch row b (16384 of them), position l (4 per row), input feature k (1024), hidden unit h (512),
  output o (3).

  Both programs end in the same head: out(b,l,o) = (∑ h, tanh (A(b,l,h) + b1 h) · W2(h,o)) + b2 o, where A is the
  first layer's pre-activation without its bias. They differ in how A is formed:
  * the reference masks and shifts the input row first, A(b,l,h) = ∑ k, x(b,l,k) · W1(k,h);
  * the kernel multiplies the input row by a 0/1 mask, and adds a second, four-term product of a masked one-hot
    row with the small matrix R1 = repeat · W1:  A(b,l,h) = ∑ k, (wenc(b,l,k) · valid(b,l)) · W1(k,h) + ∑ r, ohm(4b+l, r) · R1(r,h).
-/
import Idealize.ShloMosaic.PureOps.Ideal.Laws
import Idealize.ShloMosaic.Lib.ValueIdx

noncomputable section

namespace Cert.RepeatMlp

open Idealize.ShloMosaic Idealize.ShloMosaic.ValueIdx

/-- The shared head: a bias, tanh, the second layer and its bias, applied to a pre-activation `A`. -/
def head (A : Fin 16384 → Fin 4 → Fin 512 → EReal) (b1 : (⟨1, ![512]⟩ : Shape).Idx → EReal)
    (W2 : (⟨2, ![512, 3]⟩ : Shape).Idx → EReal) (b2 : (⟨1, ![3]⟩ : Shape).Idx → EReal) :
    (⟨3, ![16384, 4, 3]⟩ : Shape).Idx → EReal :=
  fun j => (∑ h : Fin 512, Ideal.tanh (A (j 0) (j 1) h + b1 (ix1 h)) * W2 (ix2 h (j 2))) + b2 (ix1 (j 2))

/-- Row `4b + l` of the flattened (65536-row) one-hot table. -/
def flatRow (b : Fin 16384) (l : Fin 4) : Fin 65536 := ⟨4 * b.val + l.val, by omega⟩

/-- The kernel's pre-activation: the masked input row through W1, plus the masked one-hot row through R1. -/
def preK (wenc : (⟨3, ![16384, 4, 1024]⟩ : Shape).Idx → EReal) (valid : (⟨2, ![16384, 4]⟩ : Shape).Idx → EReal)
    (ohm : (⟨2, ![65536, 4]⟩ : Shape).Idx → EReal) (R1 : (⟨2, ![4, 512]⟩ : Shape).Idx → EReal)
    (W1 : (⟨2, ![1024, 512]⟩ : Shape).Idx → EReal) : Fin 16384 → Fin 4 → Fin 512 → EReal :=
  fun b l h => (∑ k : Fin 1024, (wenc (ix3 b l k) * valid (ix2 b l)) * W1 (ix2 k h))
    + ∑ r : Fin 4, ohm (ix2 (flatRow b l) r) * R1 (ix2 r h)

/-- The reference's pre-activation of an already masked and shifted input `x`. -/
def preR (x : (⟨3, ![16384, 4, 1024]⟩ : Shape).Idx → EReal) (W1 : (⟨2, ![1024, 512]⟩ : Shape).Idx → EReal) :
    Fin 16384 → Fin 4 → Fin 512 → EReal :=
  fun b l h => ∑ k : Fin 1024, x (ix3 b l k) * W1 (ix2 k h)

end Cert.RepeatMlp

end
-- ==== Proof.RefValue.lean ====
/-
  The reference's result read at an index. Its last stage is the shared head applied to the pre-activation
  ∑ k, x(b,l,k) · W1(k,h) of the masked and shifted input x; and x(b,l,k) is the input entry plus, where the
  repeat count is positive, one row of the repeat table — all of it zero outside the valid positions.
-/
import proofs.«117219_j26121991094405_2_alg».proof.Proof.RefRead
import proofs.«117219_j26121991094405_2_alg».proof.Proof.Spec

noncomputable section

namespace Cert.RepeatMlp.RefValue

open Cert.ReferenceIdeal Cert.ReferenceIdeal.Gen Cert.ReferenceIdeal.Read Cert.RepeatMlp
open Idealize.ShloMosaic Idealize.ShloMosaic.TcCoe Idealize.SL.Sem Idealize.ShloMosaic.ValueIdx

variable (x0 : (⟨S16384x4x1024, .f32⟩ : BufTy).Contents (Elt Ideal)) (x1 : (⟨S4x1024, .f32⟩ : BufTy).Contents (Elt Ideal))
  (x2 : (⟨S1024x512, .f32⟩ : BufTy).Contents (Elt Ideal)) (x3 : (⟨S512, .f32⟩ : BufTy).Contents (Elt Ideal))
  (x4 : (⟨S512x3, .f32⟩ : BufTy).Contents (Elt Ideal)) (x5 : (⟨S3, .f32⟩ : BufTy).Contents (Elt Ideal))
  (x6 : (⟨S16384, .i32⟩ : BufTy).Contents (Elt Ideal)) (x7 : (⟨S16384x4, .i32⟩ : BufTy).Contents (Elt Ideal))

/-! ## Where each stage reads its operands, in coordinates -/

theorem lidx37 (b : Fin 16384) (l : Fin 4) (o : Fin 3) (h : Fin 512) : lidx_main_v37 (ix3 b l o) h = ix3 b l h :=
  funext fun a => Fin.ext (by match a with | ⟨0, _⟩ => rfl | ⟨1, _⟩ => rfl | ⟨2, _⟩ => rfl)
theorem ridx37 (b : Fin 16384) (l : Fin 4) (o : Fin 3) (h : Fin 512) : ridx_main_v37 (ix3 b l o) h = ix2 h o :=
  funext fun a => Fin.ext (by match a with | ⟨0, _⟩ => rfl | ⟨1, _⟩ => rfl)
theorem lidx32 (b : Fin 16384) (l : Fin 4) (h : Fin 512) (k : Fin 1024) : lidx_main_v32 (ix3 b l h) k = ix3 b l k :=
  funext fun a => Fin.ext (by match a with | ⟨0, _⟩ => rfl | ⟨1, _⟩ => rfl | ⟨2, _⟩ => rfl)
theorem ridx32 (b : Fin 16384) (l : Fin 4) (h : Fin 512) (k : Fin 1024) : ridx_main_v32 (ix3 b l h) k = ix2 k h :=
  funext fun a => Fin.ext (by match a with | ⟨0, _⟩ => rfl | ⟨1, _⟩ => rfl)
theorem idx_b1 (b : Fin 16384) (l : Fin 4) (h : Fin 512) : idx_main_v33 (idx_main_v34 (ix3 b l h)) = ix1 h :=
  funext fun a => Fin.ext (by match a with | ⟨0, _⟩ => rfl)
theorem idx_b2 (b : Fin 16384) (l : Fin 4) (o : Fin 3) : idx_main_v38 (idx_main_v39 (ix3 b l o)) = ix1 o :=
  funext fun a => Fin.ext (by match a with | ⟨0, _⟩ => rfl)
theorem idx_valid (b : Fin 16384) (l : Fin 4) (k : Fin 1024) : idx_main_v29 (idx_main_call2_v1 (ix3 b l k)) = ix2 b l :=
  funext fun a => Fin.ext (by match a with | ⟨0, _⟩ => rfl | ⟨1, _⟩ => rfl)
theorem idx_pos (b : Fin 16384) (l : Fin 4) (k : Fin 1024) : idx_main_v14 (idx_main_call1_v1 (ix3 b l k)) = ix2 b l :=
  funext fun a => Fin.ext (by match a with | ⟨0, _⟩ => rfl | ⟨1, _⟩ => rfl)

/-! ## The result is the head of the masked input's pre-activation -/

/-- The reference's result array: bias, tanh, second layer and bias over ∑ k, x(b,l,k) · W1(k,h), with x its stage 31. -/
theorem result_eq :
    val_main_v40 (F := Ideal) x0 x1 x2 x3 x4 x5 x6 x7
      = head (preR (val_main_v31 (F := Ideal) x0 x1 x6 x7) x2) x3 x4 x5 := by
  funext i
  obtain ⟨b, l, o, rfl⟩ : ∃ (b : Fin 16384) (l : Fin 4) (o : Fin 3), i = ix3 b l o := ⟨i 0, i 1, i 2, eq_ix3 i⟩
  rw [val_main_v40_apply, val_main_v37_apply, val_main_v39_apply, val_main_v38_apply]
  simp only [val_main_v36_apply, val_main_v35_apply, val_main_v32_apply, val_main_v34_apply, val_main_v33_apply,
    lidx37, ridx37, lidx32, ridx32, idx_b1, idx_b2, Ideal.addf_def, Ideal.hostUnary_tanh_def]
  rfl

/-- One entry of the masked and shifted input: zero at an invalid position; else the input entry plus, where the repeat
    count is positive, the gathered entry of the repeat table. -/
theorem masked_input_apply (b : Fin 16384) (l : Fin 4) (k : Fin 1024) :
    val_main_v31 (F := Ideal) x0 x1 x6 x7 (ix3 b l k)
      = Scalar.select (val_main_v28 (F := Ideal) x6 (ix2 b l))
          (x0 (ix3 b l k) + Scalar.select (val_main_v13 (F := Ideal) x7 (ix2 b l)) (val_main_v21 (F := Ideal) x1 x7 (ix3 b l k)) 0) 0 := by
  simp only [val_main_v31_apply, val_main_call2_v1_apply, val_main_v29_apply, val_main_call2_v2_apply, val_main_call2_v0_apply,
    val_main_cst_4_apply, val_main_v30_apply, val_main_v22_apply, val_main_call1_v1_apply, val_main_v14_apply,
    val_main_call1_v2_apply, val_main_call1_v0_apply, val_main_cst_apply, idx_valid, idx_pos, Ideal.addf_def, Ideal.ofBits_def,
    Ideal.ofBits_zero_f32]

end Cert.RepeatMlp.RefValue

end
-- ==== Proof.KernelHost.lean ====
/-
  What the kernel's region finds in the arrays the host operations of @main computed before it, read at an index.
  With wn the row lengths and wc the word codes (the two integer arguments), and the three integer stages that the
  reference computes too — the repeat count rep(b,l), the word "rep > 0", the word "l < wn b" —:
  * the validity mask is the word "l < wn b" as a float, 0 or 1;
  * row 4b + l of the flattened one-hot table holds, in column r, the word "rep(b,l) = r" as a float times the word
    "rep > 0 and l < wn b" as a float;
  * R1(r,h) = ∑ k, repeat(r,k) · W1(k,h);
  * the two weight matrices are the arguments themselves (a change of float format is the identity on the extended reals).
-/
import proofs.«117219_j26121991094405_2_alg».proof.Proof.Gen.KernelIdeal.Frame
import proofs.«117219_j26121991094405_2_alg».proof.Proof.RefRead
import proofs.«117219_j26121991094405_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.RepeatMlp.KernelHost

open Cert.KernelIdeal Cert.KernelIdeal.Gen Cert.RepeatMlp
open Idealize.ShloMosaic Idealize.ShloMosaic.TcCoe Idealize.SL.Sem Idealize.ShloMosaic.StableHlo Idealize.ShloMosaic.ValueIdx
open Cert.ReferenceIdeal.Read (val_main_v11 val_main_v13 val_main_v28)

/-! ## Contents carried along a typed reference's type equation -/

/-- There and back is the identity. -/
theorem ofBuf_toBuf {T : BufTy} (x : TRef sig T) (v : T.Contents (Elt Ideal)) : x.ofBuf (x.toBuf v) = v := by
  obtain ⟨r, h, a, b⟩ := x
  subst h
  rfl
/-- At a literal reference the type equation holds by computation, and the transport is the identity. -/
theorem toBuf_main_v21 (v : (⟨S16384x4x4, .f32⟩ : BufTy).Contents (Elt Ideal)) : (TRef.of (T := ⟨S16384x4x4, .f32⟩) main_v21).toBuf v = v := rfl
theorem ofBuf_main_v11 (v : (⟨S16384x4, .i32⟩ : BufTy).Contents (Elt Ideal)) : (TRef.of (T := ⟨S16384x4, .i32⟩) main_v11).ofBuf v = v := rfl
theorem toBuf_main_v6 (v : (⟨S4x4, .i1⟩ : BufTy).Contents (Elt Ideal)) : (TRef.of (T := ⟨S4x4, .i1⟩) main_v6).toBuf v = v := rfl
theorem ofBuf_main_v5 (v : (⟨S4x4, .i1⟩ : BufTy).Contents (Elt Ideal)) : (TRef.of (T := ⟨S4x4, .i1⟩) main_v5).ofBuf v = v := rfl

/-! ## Two broadcasts read at an index -/

/-- A [16384,4] array broadcast along a new last axis of extent 4 reads its (b,l) entry at (b,l,r). -/
theorem bcast_rows {α : Type} (x : S16384x4.Idx → α) (b : Fin 16384) (l : Fin 4) (r : Fin 4) :
    broadcastInDim S16384x4x4 ![0, 1, 2] bcast_S16384x4x1_S16384x4x4_0_1_2
      (broadcastInDim S16384x4x1 ![0, 1] bcast_S16384x4_S16384x4x1_0_1 x) (ix3 b l r) = x (ix2 b l) := by
  rw [broadcastInDim_apply _ bcast_S16384x4x1_S16384x4x4_0_1_2 _ (ix3 b l r) (ix3 b l (0 : Fin 1)) (fun a => match a with
    | ⟨0, _⟩ => by show b.val = if (16384 : Nat) = 1 then 0 else b.val; rw [if_neg (by decide)]
    | ⟨1, _⟩ => by show l.val = if (4 : Nat) = 1 then 0 else l.val; rw [if_neg (by decide)]
    | ⟨2, _⟩ => by show 0 = if (1 : Nat) = 1 then 0 else r.val; rw [if_pos rfl])]
  exact broadcastInDim_apply _ bcast_S16384x4_S16384x4x1_0_1 x (ix3 b l (0 : Fin 1)) (ix2 b l) (fun a => match a with
    | ⟨0, _⟩ => by show b.val = if (16384 : Nat) = 1 then 0 else b.val; rw [if_neg (by decide)]
    | ⟨1, _⟩ => by show l.val = if (4 : Nat) = 1 then 0 else l.val; rw [if_neg (by decide)])

/-- A [1,1,4] array broadcast over the rows reads its r-th entry at (b,l,r). -/
theorem bcast_cols {α : Type} (x : S1x1x4.Idx → α) (b : Fin 16384) (l : Fin 4) (r : Fin 4) :
    broadcastInDim S16384x4x4 ![0, 1, 2] bcast_S1x1x4_S16384x4x4_0_1_2 x (ix3 b l r) = x (ix3 (0 : Fin 1) (0 : Fin 1) r) :=
  broadcastInDim_apply _ bcast_S1x1x4_S16384x4x4_0_1_2 x (ix3 b l r) (ix3 (0 : Fin 1) (0 : Fin 1) r) (fun a => match a with
    | ⟨0, _⟩ => by show 0 = if (1 : Nat) = 1 then 0 else b.val; rw [if_pos rfl]
    | ⟨1, _⟩ => by show 0 = if (1 : Nat) = 1 then 0 else l.val; rw [if_pos rfl]
    | ⟨2, _⟩ => by show r.val = if (4 : Nat) = 1 then 0 else r.val; rw [if_neg (by decide)])

variable (m : (ℓ : Loc nD τ sig) → Buf (Elt Ideal) ℓ) (c : Dev nD)

/-! ## The validity mask -/

/-- The mask array is the word "l < wn b" (the reference's stage of the same operations) as a float. -/
theorem V_valid :
    (V m c main_v20 : S16384x4.Idx → EReal)
      = uitofp (F := Ideal) .f32 (val_main_v28 (F := Ideal) (m ((c : Thread nD τ).loc main_arg6))) := by
  dsimp only [V]
  simp only [hostOps0, hostOps0_1, hostOps0_2, hostOps0_3, hostOps0_4, List.flatten_cons, List.flatten_nil, List.append_nil,
    List.cons_append, List.nil_append]
  after_results_simp
  rfl

theorem valid_apply (b : Fin 16384) (l : Fin 4) :
    (V m c main_v20 : S16384x4.Idx → EReal) (ix2 b l)
      = FloatOps.uitofp (F := Ideal) .f32 (val_main_v28 (F := Ideal) (m ((c : Thread nD τ).loc main_arg6)) (ix2 b l)) := by
  rw [V_valid]
  rfl

/-! ## The masked one-hot table -/

/-- The table before it is flattened: the one-hot row of the repeat count times the keep word. -/
def onehotKeep (wn : S16384.Idx → BitVec 32) (wc : S16384x4.Idx → BitVec 32) : S16384x4x4.Idx → EReal :=
  mulf (F := Ideal)
    (uitofp (F := Ideal) .f32 (cmpi .eq
      (broadcastInDim S16384x4x4 ![0, 1, 2] bcast_S16384x4x1_S16384x4x4_0_1_2
        (broadcastInDim S16384x4x1 ![0, 1] bcast_S16384x4_S16384x4x1_0_1 (val_main_v11 (F := Ideal) wc)))
      (broadcastInDim S16384x4x4 ![0, 1, 2] bcast_S1x1x4_S16384x4x4_0_1_2 (iotaInDim S1x1x4 32 2))))
    (broadcastInDim S16384x4x4 ![0, 1, 2] bcast_S16384x4x1_S16384x4x4_0_1_2
      (broadcastInDim S16384x4x1 ![0, 1] bcast_S16384x4_S16384x4x1_0_1
        (uitofp (F := Ideal) .f32 (andi (val_main_v13 (F := Ideal) wc) (val_main_v28 (F := Ideal) wn)))))

theorem onehotKeep_apply (wn : S16384.Idx → BitVec 32) (wc : S16384x4.Idx → BitVec 32) (b : Fin 16384) (l : Fin 4) (r : Fin 4) :
    onehotKeep wn wc (ix3 b l r)
      = FloatOps.uitofp (F := Ideal) .f32 (IntOp.cmpi .eq (val_main_v11 (F := Ideal) wc (ix2 b l)) (BitVec.ofNat 32 r.val))
        * FloatOps.uitofp (F := Ideal) .f32 (IntOp.andi (val_main_v13 (F := Ideal) wc (ix2 b l)) (val_main_v28 (F := Ideal) wn (ix2 b l))) := by
  unfold onehotKeep
  rw [mulf_apply]
  show FloatOps.uitofp (F := Ideal) .f32 (IntOp.cmpi .eq (broadcastInDim _ _ _ _ (ix3 b l r)) (broadcastInDim _ _ _ _ (ix3 b l r)))
    * broadcastInDim _ _ _ _ (ix3 b l r) = _
  rw [bcast_rows, bcast_cols, bcast_rows]
  rfl

/-- The flattened table is the reshaped product, its float format changed. -/
theorem V_ohm :
    (V m c main_v28 : S65536x4.Idx → EReal)
      = truncf (F := Ideal) .bf16 (fun i => shapeCast S65536x4
          (onehotKeep (m ((c : Thread nD τ).loc main_arg6)) (m ((c : Thread nD τ).loc main_arg7))) shapeCasts_S16384x4x4_S65536x4 i)
          bitsLt_bf16_f32 := by
  dsimp only [V]
  simp only [hostOps0, hostOps0_1, hostOps0_2, hostOps0_3, hostOps0_4, List.flatten_cons, List.flatten_nil, List.append_nil,
    List.cons_append, List.nil_append]
  after_results_simp
  simp only [ofBuf_toBuf, toBuf_main_v21, ofBuf_main_v11, toBuf_main_v6, ofBuf_main_v5]
  rfl

/-- Row 4b + l of the flattened table, column r. -/
theorem ohm_apply (b : Fin 16384) (l : Fin 4) (r : Fin 4) :
    (V m c main_v28 : S65536x4.Idx → EReal) (ix2 (flatRow b l) r)
      = FloatOps.uitofp (F := Ideal) .f32 (IntOp.cmpi .eq (val_main_v11 (F := Ideal) (m ((c : Thread nD τ).loc main_arg7)) (ix2 b l)) (BitVec.ofNat 32 r.val))
        * FloatOps.uitofp (F := Ideal) .f32 (IntOp.andi (val_main_v13 (F := Ideal) (m ((c : Thread nD τ).loc main_arg7)) (ix2 b l))
            (val_main_v28 (F := Ideal) (m ((c : Thread nD τ).loc main_arg6)) (ix2 b l))) := by
  rw [V_ohm, truncf_apply]
  show shapeCast S65536x4 _ shapeCasts_S16384x4x4_S65536x4 (ix2 (flatRow b l) r) = _
  rw [shapeCast_apply _ shapeCasts_S16384x4x4_S65536x4 (ix2 (flatRow b l) r) (ix3 b l r) (by
    rw [Shape.rowMajor_val_three, Shape.rowMajor_val_two]
    show (b.val * 4 + l.val) * 4 + r.val = (4 * b.val + l.val) * 4 + r.val
    omega)]
  exact onehotKeep_apply _ _ b l r

/-! ## The small matrix R1 = repeat · W1 and the two weight matrices -/

/-- The host product of the repeat table with the first-layer weights, its float format changed. -/
def r1Of (rp : S4x1024.Idx → EReal) (w1 : S1024x512.Idx → EReal) : S4x512.Idx → EReal :=
  truncf (F := Ideal) (φ := .f32) .bf16 (Host.dotGeneral (F := Ideal) (φ₁ := .f32) (φ₂ := .f32) dot_S4x1024_S1024x512_S4x512_1_0_0_1_n_n (some .fp32) rp w1) bitsLt_bf16_f32

theorem V_r1 :
    (V m c main_v30 : S4x512.Idx → EReal) = r1Of (m ((c : Thread nD τ).loc main_arg1)) (m ((c : Thread nD τ).loc main_arg2)) := by
  dsimp only [V]
  simp only [hostOps0, hostOps0_1, hostOps0_2, hostOps0_3, hostOps0_4, List.flatten_cons, List.flatten_nil, List.append_nil,
    List.cons_append, List.nil_append]
  after_results_simp
  rfl

/-- The host product's left operand is read at the result's row, its right operand at the result's column. -/
theorem r1_lhs_row (i : S4x512.Idx) (q : dot_S4x1024_S1024x512_S4x512_1_0_0_1_n_n.contr.Idx) :
    (dot_S4x1024_S1024x512_S4x512_1_0_0_1_n_n.lhsIdx i q 0).val = (i 0).val := by
  unfold DotDims.lhsIdx
  rw [dif_neg (show ¬(0 : Fin S4x1024.rank) ∈ dot_S4x1024_S1024x512_S4x512_1_0_0_1_n_n.lhsBatch by decide),
    dif_pos (show (0 : Fin S4x1024.rank) ∈ dot_S4x1024_S1024x512_S4x512_1_0_0_1_n_n.lhsNonContracting by decide)]
  rfl
theorem r1_rhs_col (i : S4x512.Idx) (q : dot_S4x1024_S1024x512_S4x512_1_0_0_1_n_n.contr.Idx) :
    (dot_S4x1024_S1024x512_S4x512_1_0_0_1_n_n.rhsIdx i q 1).val = (i 1).val := by
  unfold DotDims.rhsIdx
  rw [dif_neg (show ¬(1 : Fin S1024x512.rank) ∈ dot_S4x1024_S1024x512_S4x512_1_0_0_1_n_n.rhsBatch by decide),
    dif_pos (show (1 : Fin S1024x512.rank) ∈ dot_S4x1024_S1024x512_S4x512_1_0_0_1_n_n.rhsNonContracting by decide)]
  rfl

/-- R1(r,h) is the sum over k of repeat(r,k) · W1(k,h): the host product's contraction index is its one coordinate. -/
theorem r1Of_apply (rp : S4x1024.Idx → EReal) (w1 : S1024x512.Idx → EReal) (r : Fin 4) (h : Fin 512) :
    r1Of rp w1 (ix2 r h) = ∑ k : Fin 1024, rp (ix2 r k) * w1 (ix2 k h) := by
  unfold r1Of
  rw [truncf_apply]
  simp only [Host.dotGeneral]
  rw [Ideal.dotGeneral_apply, ← Equiv.sum_comp (ValueIdx.contrEquiv1 dot_S4x1024_S1024x512_S4x512_1_0_0_1_n_n 1024 rfl rfl).symm]
  refine Finset.sum_congr rfl fun k _ => ?_
  have hk := ValueIdx.contrEquiv1_symm_val dot_S4x1024_S1024x512_S4x512_1_0_0_1_n_n 1024 rfl rfl k
  have el : dot_S4x1024_S1024x512_S4x512_1_0_0_1_n_n.lhsIdx (ix2 r h)
      ((ValueIdx.contrEquiv1 dot_S4x1024_S1024x512_S4x512_1_0_0_1_n_n 1024 rfl rfl).symm k) = ix2 r k := funext fun a => Fin.ext (by
    match a with
    | ⟨0, _⟩ => exact r1_lhs_row _ _
    | ⟨1, _⟩ => exact (dot_S4x1024_S1024x512_S4x512_1_0_0_1_n_n.lhsIdx_val_of_single rfl _ _).trans hk)
  have er : dot_S4x1024_S1024x512_S4x512_1_0_0_1_n_n.rhsIdx (ix2 r h)
      ((ValueIdx.contrEquiv1 dot_S4x1024_S1024x512_S4x512_1_0_0_1_n_n 1024 rfl rfl).symm k) = ix2 k h := funext fun a => Fin.ext (by
    match a with
    | ⟨0, _⟩ => exact (dot_S4x1024_S1024x512_S4x512_1_0_0_1_n_n.rhsIdx_val_of_single rfl _ _).trans hk
    | ⟨1, _⟩ => exact r1_rhs_col _ _)
  rw [el, er]

/-- The first-layer weights the region finds are the argument. -/
theorem V_w1 : (V m c main_v31 : S1024x512.Idx → EReal) = m ((c : Thread nD τ).loc main_arg2) := by
  dsimp only [V]
  simp only [hostOps0, hostOps0_1, hostOps0_2, hostOps0_3, hostOps0_4, List.flatten_cons, List.flatten_nil, List.append_nil,
    List.cons_append, List.nil_append]
  after_results_simp
  rfl

/-- The second-layer weights the region finds are the argument. -/
theorem V_w2 : (V m c main_v32 : S512x3.Idx → EReal) = m ((c : Thread nD τ).loc main_arg4) := by
  dsimp only [V]
  simp only [hostOps0, hostOps0_1, hostOps0_2, hostOps0_3, hostOps0_4, List.flatten_cons, List.flatten_nil, List.append_nil,
    List.cons_append, List.nil_append]
  after_results_simp
  rfl

end Cert.RepeatMlp.KernelHost

end
-- ==== Proof.KernelValue.lean ====
/-
  The kernel's value leg. The region runs one body on a grid of 64 points. At point t the body reads block t of the
  masked input [256,4,1024], of the validity mask [256,4] and of the flattened one-hot table [1024,4], and the whole
  of the small matrices; it computes, for block row p, position l and output o,

    out(p,l,o) = (∑ h, tanh (((∑ k, (x(p,l,k) · valid(p,l)) · W1(k,h)) + ∑ r, oh(4p+l, r) · R1(r,h)) + b1 h) · W2(h,o)) + b2 o

  (row 4p+l of the [1024,·] matrices is block row p at position l: both shape casts are row-major), and writes the
  [256,4,3] result to block t of the output. Batch row b = 256·t + p, and the one-hot table's row 1024·t + 4p + l
  is 4b + l. Since the 64 blocks tile the output, the array after the run is `head (preK …)` of the arrays the
  region finds.
-/
import proofs.«117219_j26121991094405_2_alg».proof.Proof.Gen.KernelIdeal.Value
import proofs.«117219_j26121991094405_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.RepeatMlp.KernelValue

open Cert.KernelIdeal Cert.KernelIdeal.Gen Cert.RepeatMlp
open Idealize.ShloMosaic Idealize.ShloMosaic.TcCoe Idealize.SL.Sem Idealize.ShloMosaic.ValueIdx
open Idealize.ShloMosaic.Pipeline (Dat)

/-! ## The three matrix products, read at an index

Each matrix product of the body contracts the left operand's columns with the right operand's rows into the zero constant: at
(q, h) it is the plain sum over the contraction index of left(q, k) · right(k, h). -/

theorem mm1_lhs0 (i : S1024x512.Idx) (q : dot_S1024x1024_S1024x512_S1024x512_1_0_0_1_n_n.contr.Idx) : (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl
theorem mm1_lhs1 (i : S1024x512.Idx) (q : dot_S1024x1024_S1024x512_S1024x512_1_0_0_1_n_n.contr.Idx) : (dot_S1024x1024_S1024x512_S1024x512_1_0_0_1_n_n.lhsIdx i q 1).val = (q ⟨0, by decide⟩).val :=
  dot_S1024x1024_S1024x512_S1024x512_1_0_0_1_n_n.lhsIdx_val_of_single rfl i q
theorem mm1_rhs0 (i : S1024x512.Idx) (q : dot_S1024x1024_S1024x512_S1024x512_1_0_0_1_n_n.contr.Idx) : (dot_S1024x1024_S1024x512_S1024x512_1_0_0_1_n_n.rhsIdx i q 0).val = (q ⟨0, by decide⟩).val :=
  dot_S1024x1024_S1024x512_S1024x512_1_0_0_1_n_n.rhsIdx_val_of_single rfl i q
theorem mm1_rhs1 (i : S1024x512.Idx) (q : dot_S1024x1024_S1024x512_S1024x512_1_0_0_1_n_n.contr.Idx) : (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

/-- The [1024,1024] × [1024,512] product at (q, h). -/
theorem mm1_apply (a : FVec Ideal S1024x1024 .bf16) (b : FVec Ideal S1024x512 .bf16) (q : Fin 1024) (h : Fin 512) :
    matmul dot_S1024x1024_S1024x512_S1024x512_1_0_0_1_n_n none a b (constant (F := Ideal) S1024x512 .f32 0x00000000#32) (ix2 q h)
      = ∑ k : Fin 1024, a (ix2 q k) * b (ix2 k h) := by
  show FloatOps.matmul dot_S1024x1024_S1024x512_S1024x512_1_0_0_1_n_n none a b (constant (F := Ideal) S1024x512 .f32 0x00000000#32) (ix2 q h) = _
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 q h) ((contrEquiv1 dot_S1024x1024_S1024x512_S1024x512_1_0_0_1_n_n 1024 rfl rfl).symm k) = ix2 q k :=
    funext fun c => Fin.ext (by
      match c with
      | ⟨0, _⟩ => exact mm1_lhs0 _ _
      | ⟨1, _⟩ => exact (mm1_lhs1 _ _).trans hk)
  have er : dot_S1024x1024_S1024x512_S1024x512_1_0_0_1_n_n.rhsIdx (ix2 q h) ((contrEquiv1 dot_S1024x1024_S1024x512_S1024x512_1_0_0_1_n_n 1024 rfl rfl).symm k) = ix2 k h :=
    funext fun c => Fin.ext (by
      match c with
      | ⟨0, _⟩ => exact (mm1_rhs0 _ _).trans hk
      | ⟨1, _⟩ => exact mm1_rhs1 _ _)
  rw [el, er]

theorem mm2_lhs0 (i : S1024x512.Idx) (q : dot_S1024x4_S4x512_S1024x512_1_0_0_1_n_n.contr.Idx) : (dot_S1024x4_S4x512_S1024x512_1_0_0_1_n_n.lhsIdx i q 0).val = (i 0).val := by
  unfold DotDims.lhsIdx
  rw [dif_neg (show ¬(0 : Fin S1024x4.rank) ∈ dot_S1024x4_S4x512_S1024x512_1_0_0_1_n_n.lhsBatch by decide),
    dif_pos (show (0 : Fin S1024x4.rank) ∈ dot_S1024x4_S4x512_S1024x512_1_0_0_1_n_n.lhsNonContracting by decide)]
  rfl
theorem mm2_lhs1 (i : S1024x512.Idx) (q : dot_S1024x4_S4x512_S1024x512_1_0_0_1_n_n.contr.Idx) : (dot_S1024x4_S4x512_S1024x512_1_0_0_1_n_n.lhsIdx i q 1).val = (q ⟨0, by decide⟩).val :=
  dot_S1024x4_S4x512_S1024x512_1_0_0_1_n_n.lhsIdx_val_of_single rfl i q
theorem mm2_rhs0 (i : S1024x512.Idx) (q : dot_S1024x4_S4x512_S1024x512_1_0_0_1_n_n.contr.Idx) : (dot_S1024x4_S4x512_S1024x512_1_0_0_1_n_n.rhsIdx i q 0).val = (q ⟨0, by decide⟩).val :=
  dot_S1024x4_S4x512_S1024x512_1_0_0_1_n_n.rhsIdx_val_of_single rfl i q
theorem mm2_rhs1 (i : S1024x512.Idx) (q : dot_S1024x4_S4x512_S1024x512_1_0_0_1_n_n.contr.Idx) : (dot_S1024x4_S4x512_S1024x512_1_0_0_1_n_n.rhsIdx i q 1).val = (i 1).val := by
  unfold DotDims.rhsIdx
  rw [dif_neg (show ¬(1 : Fin S4x512.rank) ∈ dot_S1024x4_S4x512_S1024x512_1_0_0_1_n_n.rhsBatch by decide),
    dif_pos (show (1 : Fin S4x512.rank) ∈ dot_S1024x4_S4x512_S1024x512_1_0_0_1_n_n.rhsNonContracting by decide)]
  rfl

/-- The [1024,4] × [4,512] product at (q, h). -/
theorem mm2_apply (a : FVec Ideal S1024x4 .bf16) (b : FVec Ideal S4x512 .bf16) (q : Fin 1024) (h : Fin 512) :
    matmul dot_S1024x4_S4x512_S1024x512_1_0_0_1_n_n none a b (constant (F := Ideal) S1024x512 .f32 0x00000000#32) (ix2 q h)
      = ∑ k : Fin 4, a (ix2 q k) * b (ix2 k h) := by
  show FloatOps.matmul dot_S1024x4_S4x512_S1024x512_1_0_0_1_n_n none a b (constant (F := Ideal) S1024x512 .f32 0x00000000#32) (ix2 q h) = _
  rw [Ideal.matmul_constant_zero_apply, ← Equiv.sum_comp (contrEquiv1 dot_S1024x4_S4x512_S1024x512_1_0_0_1_n_n 4 rfl rfl).symm]
  refine Finset.sum_congr rfl fun k _ => ?_
  have hk := contrEquiv1_symm_val dot_S1024x4_S4x512_S1024x512_1_0_0_1_n_n 4 rfl rfl k
  have el : dot_S1024x4_S4x512_S1024x512_1_0_0_1_n_n.lhsIdx (ix2 q h) ((contrEquiv1 dot_S1024x4_S4x512_S1024x512_1_0_0_1_n_n 4 rfl rfl).symm k) = ix2 q k :=
    funext fun c => Fin.ext (by
      match c with
      | ⟨0, _⟩ => exact mm2_lhs0 _ _
      | ⟨1, _⟩ => exact (mm2_lhs1 _ _).trans hk)
  have er : dot_S1024x4_S4x512_S1024x512_1_0_0_1_n_n.rhsIdx (ix2 q h) ((contrEquiv1 dot_S1024x4_S4x512_S1024x512_1_0_0_1_n_n 4 rfl rfl).symm k) = ix2 k h :=
    funext fun c => Fin.ext (by
      match c with
      | ⟨0, _⟩ => exact (mm2_rhs0 _ _).trans hk
      | ⟨1, _⟩ => exact mm2_rhs1 _ _)
  rw [el, er]

theorem mm3_lhs0 (i : S1024x3.Idx) (q : dot_S1024x512_S512x3_S1024x3_1_0_0_1_n_n.contr.Idx) : (dot_S1024x512_S512x3_S1024x3_1_0_0_1_n_n.lhsIdx i q 0).val = (i 0).val := by
  unfold DotDims.lhsIdx
  rw [dif_neg (show ¬(0 : Fin S1024x512.rank) ∈ dot_S1024x512_S512x3_S1024x3_1_0_0_1_n_n.lhsBatch by decide),
    dif_pos (show (0 : Fin S1024x512.rank) ∈ dot_S1024x512_S512x3_S1024x3_1_0_0_1_n_n.lhsNonContracting by decide)]
  rfl
theorem mm3_lhs1 (i : S1024x3.Idx) (q : dot_S1024x512_S512x3_S1024x3_1_0_0_1_n_n.contr.Idx) : (dot_S1024x512_S512x3_S1024x3_1_0_0_1_n_n.lhsIdx i q 1).val = (q ⟨0, by decide⟩).val :=
  dot_S1024x512_S512x3_S1024x3_1_0_0_1_n_n.lhsIdx_val_of_single rfl i q
theorem mm3_rhs0 (i : S1024x3.Idx) (q : dot_S1024x512_S512x3_S1024x3_1_0_0_1_n_n.contr.Idx) : (dot_S1024x512_S512x3_S1024x3_1_0_0_1_n_n.rhsIdx i q 0).val = (q ⟨0, by decide⟩).val :=
  dot_S1024x512_S512x3_S1024x3_1_0_0_1_n_n.rhsIdx_val_of_single rfl i q
theorem mm3_rhs1 (i : S1024x3.Idx) (q : dot_S1024x512_S512x3_S1024x3_1_0_0_1_n_n.contr.Idx) : (dot_S1024x512_S512x3_S1024x3_1_0_0_1_n_n.rhsIdx i q 1).val = (i 1).val := by
  unfold DotDims.rhsIdx
  rw [dif_neg (show ¬(1 : Fin S512x3.rank) ∈ dot_S1024x512_S512x3_S1024x3_1_0_0_1_n_n.rhsBatch by decide),
    dif_pos (show (1 : Fin S512x3.rank) ∈ dot_S1024x512_S512x3_S1024x3_1_0_0_1_n_n.rhsNonContracting by decide)]
  rfl

/-- The [1024,512] × [512,3] product at (q, o). -/
theorem mm3_apply (a : FVec Ideal S1024x512 .bf16) (b : FVec Ideal S512x3 .bf16) (q : Fin 1024) (h : Fin 3) :
    matmul dot_S1024x512_S512x3_S1024x3_1_0_0_1_n_n none a b (constant (F := Ideal) S1024x3 .f32 0x00000000#32) (ix2 q h)
      = ∑ k : Fin 512, a (ix2 q k) * b (ix2 k h) := by
  show FloatOps.matmul dot_S1024x512_S512x3_S1024x3_1_0_0_1_n_n none a b (constant (F := Ideal) S1024x3 .f32 0x00000000#32) (ix2 q h) = _
  rw [Ideal.matmul_constant_zero_apply, ← Equiv.sum_comp (contrEquiv1 dot_S1024x512_S512x3_S1024x3_1_0_0_1_n_n 512 rfl rfl).symm]
  refine Finset.sum_congr rfl fun k _ => ?_
  have hk := contrEquiv1_symm_val dot_S1024x512_S512x3_S1024x3_1_0_0_1_n_n 512 rfl rfl k
  have el : dot_S1024x512_S512x3_S1024x3_1_0_0_1_n_n.lhsIdx (ix2 q h) ((contrEquiv1 dot_S1024x512_S512x3_S1024x3_1_0_0_1_n_n 512 rfl rfl).symm k) = ix2 q k :=
    funext fun c => Fin.ext (by
      match c with
      | ⟨0, _⟩ => exact mm3_lhs0 _ _
      | ⟨1, _⟩ => exact (mm3_lhs1 _ _).trans hk)
  have er : dot_S1024x512_S512x3_S1024x3_1_0_0_1_n_n.rhsIdx (ix2 q h) ((contrEquiv1 dot_S1024x512_S512x3_S1024x3_1_0_0_1_n_n 512 rfl rfl).symm k) = ix2 k h :=
    funext fun c => Fin.ext (by
      match c with
      | ⟨0, _⟩ => exact (mm3_rhs0 _ _).trans hk
      | ⟨1, _⟩ => exact mm3_rhs1 _ _)
  rw [el, er]

/-! ## The layout operations of the body, read at an index -/

/-- Row `4p + l` of a [1024,·] matrix: block row `p`, position `l`. -/
def row4 (p : Fin 256) (l : Fin 4) : Fin 1024 := ⟨4 * p.val + l.val, by omega⟩

/-- The [1024,3] result cast to [256,4,3] reads, at (p, l, o), row `4p + l`. -/
theorem cast_out_apply {α : Type} (x : S1024x3.Idx → α) (h : S1024x3.ShapeCasts S256x4x3) (p : Fin 256) (l : Fin 4) (o : Fin 3) :
    shapeCast S256x4x3 x h (ix3 p l o) = x (ix2 (row4 p l) o) :=
  shapeCast_apply x h _ _ (by
    rw [Shape.rowMajor_val_two, Shape.rowMajor_val_three]
    show (4 * p.val + l.val) * 3 + o.val = (p.val * 4 + l.val) * 3 + o.val
    omega)

/-- The [256,4,1024] input cast to [1024,1024] reads, at row `4p + l`, the input at (p, l, ·). -/
theorem cast_in_apply {α : Type} (x : S256x4x1024.Idx → α) (h : S256x4x1024.ShapeCasts S1024x1024) (p : Fin 256) (l : Fin 4) (k : Fin 1024) :
    shapeCast S1024x1024 x h (ix2 (row4 p l) k) = x (ix3 p l k) :=
  shapeCast_apply x h _ _ (by
    rw [Shape.rowMajor_val_two, Shape.rowMajor_val_three]
    show (p.val * 4 + l.val) * 1024 + k.val = (4 * p.val + l.val) * 1024 + k.val
    omega)

/-- The [256,4] mask cast to [256,4,1] reads, at (p, l, ·), the mask at (p, l). -/
theorem cast_mask_apply {α : Type} (x : S256x4.Idx → α) (h : S256x4.ShapeCasts S256x4x1) (p : Fin 256) (l : Fin 4) (u : Fin 1) :
    shapeCast S256x4x1 x h (ix3 p l u) = x (ix2 p l) :=
  shapeCast_apply x h _ _ (by
    have hu : u.val = 0 := by omega
    rw [Shape.rowMajor_val_two, Shape.rowMajor_val_three]
    show p.val * 4 + l.val = (p.val * 4 + l.val) * 1 + u.val
    omega)

/-- The [256,4,1] column broadcast along the features reads, at (p, l, k), the column at (p, l, 0). -/
theorem bcast_mask_apply {α : Type} (x : S256x4x1.Idx → α) (h : S256x4x1.Broadcasts S256x4x1024) (p : Fin 256) (l : Fin 4) (k : Fin 1024) :
    broadcastTo S256x4x1024 x h (ix3 p l k) = x (ix3 p l (0 : Fin 1)) := by
  refine broadcastTo_apply x h (ix3 p l k) (ix3 p l (0 : Fin 1)) fun ax => ?_
  match ax with
  | ⟨0, _⟩ => show p.val = if (256 : Nat) = 1 then 0 else p.val; rw [if_neg (by decide)]
  | ⟨1, _⟩ => show l.val = if (4 : Nat) = 1 then 0 else l.val; rw [if_neg (by decide)]
  | ⟨2, _⟩ => show 0 = if (1 : Nat) = 1 then 0 else k.val; rw [if_pos rfl]

/-- tanh of a vector at an index is the extended-real tanh of the entry. -/
theorem tanh_apply {s : Shape} {φ : FTy} (a : FVec Ideal s φ) (i : s.Idx) : tanh a i = Ideal.tanh (a i) := rfl

/-! ## The body's payload at an index -/

/-- The stored block at (p, l, o), as sums over the hidden units, the input features and the four one-hot columns. -/
theorem pay_apply (x0 : Vec Ideal S256x4x1024 .f32) (x1 : Vec Ideal S256x4 .f32) (x4 : Vec Ideal S1024x512 .bf16)
    (x2 : Vec Ideal S1024x4 .bf16) (x3 : Vec Ideal S4x512 .bf16) (x5 : Vec Ideal S512 .f32) (x6 : Vec Ideal S512x3 .bf16)
    (x7 : Vec Ideal S3 .f32) (p : Fin 256) (l : Fin 4) (o : Fin 3) :
    k0_pay1 (F := Ideal) x0 x1 x4 x2 x3 x5 x6 x7 (ix3 p l o)
      = (∑ h : Fin 512, Ideal.tanh (((∑ k : Fin 1024, (x0 (ix3 p l k) * x1 (ix2 p l)) * x4 (ix2 k h))
            + ∑ r : Fin 4, x2 (ix2 (row4 p l) r) * x3 (ix2 r h)) + x5 (ix1 h)) * x6 (ix2 h o))
        + x7 (ix1 o) := by
  unfold k0_pay1
  simp only [shapeCast_self]
  rw [cast_out_apply, addf_apply, mm3_apply, broadcastTo_1b_ab_apply, shapeCast_a_1a_apply]
  refine congrArg (· + x7 (ix1 o)) (Finset.sum_congr rfl fun h _ => ?_)
  rw [truncf_apply, tanh_apply, addf_apply, addf_apply, mm1_apply, mm2_apply, broadcastTo_1b_ab_apply,
    shapeCast_a_1a_apply]
  refine congrArg (fun z => Ideal.tanh ((z + _) + _) * _) (Finset.sum_congr rfl fun k _ => ?_)
  rw [truncf_apply, cast_in_apply, mulf_apply, bcast_mask_apply, cast_mask_apply]

/-! ## From the blocks to the array -/

variable (m : (ℓ : Loc nD τ sig) → Buf (Elt Ideal) ℓ)

/-- What the output array ends holding: the shared head over the kernel's pre-activation, of the arrays the region finds. -/
abbrev G (c : Dev nD) : S16384x4x3.Idx → EReal :=
  head (preK (V m c main_arg0) (V m c main_v20) (V m c main_v28) (V m c main_v30) (V m c main_v31))
    (V m c main_arg3) (V m c main_v32) (V m c main_arg5)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the three row-blocked inputs and the output sit at block `t` of
    their first axis, every other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 3) = t.val ∧ win0_8.index t (1 : Fin 3) = 0 ∧ win0_8.index t (2 : Fin 3) = 0 :=
  (by decide +kernel : ∀ t : Fin grid0.N, _)

theorem lt64 (t : Fin cfg0.N) : t.val < 64 := by
  have h := t.isLt
  have hN : cfg0.N = 64 := N_0
  omega

/-- Batch row `256 t + p`: row `p` of block `t`. -/
def brow (t : Fin cfg0.N) (p : Fin 256) : Fin 16384 := ⟨256 * t.val + p.val, by have := lt64 t; omega⟩

/-- Row `q` of block `t` of the flattened one-hot table is its row `1024 t + q`. -/
def orow (t : Fin cfg0.N) (q : Fin 1024) : Fin 65536 := ⟨1024 * t.val + q.val, by have := lt64 t; omega⟩

/-- Row `4p + l` of block `t` is row `4 (256 t + p) + l` of the table: batch row `256 t + p` at position `l`. -/
theorem orow_row4 (t : Fin cfg0.N) (p : Fin 256) (l : Fin 4) : orow t (row4 p l) = flatRow (brow t p) l :=
  Fin.ext (by show 1024 * t.val + (4 * p.val + l.val) = 4 * (256 * t.val + p.val) + l.val; omega)

/-! Each input block, read where the output's block says. -/

theorem blk0_apply (c : Dev nD) (t : Fin cfg0.N) (p : Fin 256) (l : Fin 4) (k : Fin 1024) :
    (iblk m c 0 t : S256x4x1024.Idx → EReal) (ix3 p l k) = (V m c main_arg0 : S16384x4x1024.Idx → EReal) (ix3 (brow t p) l k) := by
  obtain ⟨e00, e01, e02, e10, e11, e20, e21, e30, e31, e40, e41, e50, e60, e61, e70, e80, e81, e82⟩ := idx_facts t
  show V m c main_arg0 (((cfg0.win 0).blk t).view.emb (ix3 p l k)) = V m c main_arg0 _
  refine congrArg _ (funext fun a => Fin.ext ?_)
  match a with
  | ⟨0, _⟩ => show win0_0.index t (0 : Fin 3) * 256 + 1 * p.val = 256 * t.val + p.val; omega
  | ⟨1, _⟩ => show win0_0.index t (1 : Fin 3) * 4 + 1 * l.val = l.val; omega
  | ⟨2, _⟩ => show win0_0.index t (2 : Fin 3) * 1024 + 1 * k.val = k.val; omega

theorem blk1_apply (c : Dev nD) (t : Fin cfg0.N) (p : Fin 256) (l : Fin 4) :
    (iblk m c 1 t : S256x4.Idx → EReal) (ix2 p l) = (V m c main_v20 : S16384x4.Idx → EReal) (ix2 (brow t p) l) := by
  obtain ⟨e00, e01, e02, e10, e11, e20, e21, e30, e31, e40, e41, e50, e60, e61, e70, e80, e81, e82⟩ := idx_facts t
  show V m c main_v20 (((cfg0.win 1).blk t).view.emb (ix2 p l)) = V m c main_v20 _
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 4 + 1 * l.val = l.val; omega

theorem blk2_apply (c : Dev nD) (t : Fin cfg0.N) (q : Fin 1024) (r : Fin 4) :
    (iblk m c 2 t : S1024x4.Idx → EReal) (ix2 q r) = (V m c main_v28 : S65536x4.Idx → EReal) (ix2 (orow t q) r) := by
  obtain ⟨e00, e01, e02, e10, e11, e20, e21, e30, e31, e40, e41, e50, e60, e61, e70, e80, e81, e82⟩ := idx_facts t
  show V m c main_v28 (((cfg0.win 2).blk t).view.emb (ix2 q r)) = V m c main_v28 _
  refine congrArg _ (funext fun a => Fin.ext ?_)
  match a with
  | ⟨0, _⟩ => show win0_2.index t (0 : Fin 2) * 1024 + 1 * q.val = 1024 * t.val + q.val; omega
  | ⟨1, _⟩ => show win0_2.index t (1 : Fin 2) * 4 + 1 * r.val = r.val; omega

theorem blk3_apply (c : Dev nD) (t : Fin cfg0.N) (r : Fin 4) (h : Fin 512) :
    (iblk m c 3 t : S4x512.Idx → EReal) (ix2 r h) = (V m c main_v30 : S4x512.Idx → EReal) (ix2 r h) := by
  obtain ⟨e00, e01, e02, e10, e11, e20, e21, e30, e31, e40, e41, e50, e60, e61, e70, e80, e81, e82⟩ := idx_facts t
  show V m c main_v30 (((cfg0.win 3).blk t).view.emb (ix2 r h)) = V m c main_v30 _
  refine congrArg _ (funext fun a => Fin.ext ?_)
  match a with
  | ⟨0, _⟩ => show win0_3.index t (0 : Fin 2) * 4 + 1 * r.val = r.val; omega
  | ⟨1, _⟩ => show win0_3.index t (1 : Fin 2) * 512 + 1 * h.val = h.val; omega

theorem blk4_apply (c : Dev nD) (t : Fin cfg0.N) (k : Fin 1024) (h : Fin 512) :
    (iblk m c 4 t : S1024x512.Idx → EReal) (ix2 k h) = (V m c main_v31 : S1024x512.Idx → EReal) (ix2 k h) := by
  obtain ⟨e00, e01, e02, e10, e11, e20, e21, e30, e31, e40, e41, e50, e60, e61, e70, e80, e81, e82⟩ := idx_facts t
  show V m c main_v31 (((cfg0.win 4).blk t).view.emb (ix2 k h)) = V m c main_v31 _
  refine congrArg _ (funext fun a => Fin.ext ?_)
  match a with
  | ⟨0, _⟩ => show win0_4.index t (0 : Fin 2) * 1024 + 1 * k.val = k.val; omega
  | ⟨1, _⟩ => show win0_4.index t (1 : Fin 2) * 512 + 1 * h.val = h.val; omega

theorem blk5_apply (c : Dev nD) (t : Fin cfg0.N) (h : Fin 512) :
    (iblk m c 5 t : S512.Idx → EReal) (ix1 h) = (V m c main_arg3 : S512.Idx → EReal) (ix1 h) := by
  obtain ⟨e00, e01, e02, e10, e11, e20, e21, e30, e31, e40, e41, e50, e60, e61, e70, e80, e81, e82⟩ := idx_facts t
  show V m c main_arg3 (((cfg0.win 5).blk t).view.emb (ix1 h)) = V m c main_arg3 _
  refine congrArg _ (funext fun a => Fin.ext ?_)
  match a with
  | ⟨0, _⟩ => show win0_5.index t (0 : Fin 1) * 512 + 1 * h.val = h.val; omega

theorem blk6_apply (c : Dev nD) (t : Fin cfg0.N) (h : Fin 512) (o : Fin 3) :
    (iblk m c 6 t : S512x3.Idx → EReal) (ix2 h o) = (V m c main_v32 : S512x3.Idx → EReal) (ix2 h o) := by
  obtain ⟨e00, e01, e02, e10, e11, e20, e21, e30, e31, e40, e41, e50, e60, e61, e70, e80, e81, e82⟩ := idx_facts t
  show V m c main_v32 (((cfg0.win 6).blk t).view.emb (ix2 h o)) = V m c main_v32 _
  refine congrArg _ (funext fun a => Fin.ext ?_)
  match a with
  | ⟨0, _⟩ => show win0_6.index t (0 : Fin 2) * 512 + 1 * h.val = h.val; omega
  | ⟨1, _⟩ => show win0_6.index t (1 : Fin 2) * 3 + 1 * o.val = o.val; omega

theorem blk7_apply (c : Dev nD) (t : Fin cfg0.N) (o : Fin 3) :
    (iblk m c 7 t : S3.Idx → EReal) (ix1 o) = (V m c main_arg5 : S3.Idx → EReal) (ix1 o) := by
  obtain ⟨e00, e01, e02, e10, e11, e20, e21, e30, e31, e40, e41, e50, e60, e61, e70, e80, e81, e82⟩ := idx_facts t
  show V m c main_arg5 (((cfg0.win 7).blk t).view.emb (ix1 o)) = V m c main_arg5 _
  refine congrArg _ (funext fun a => Fin.ext ?_)
  match a with
  | ⟨0, _⟩ => show win0_7.index t (0 : Fin 1) * 3 + 1 * o.val = o.val; omega

/-- Element (p, l, o) of the output's block `t` sits at batch row `256 t + p`. -/
theorem emb8 (t : Fin cfg0.N) (p : Fin 256) (l : Fin 4) (o : Fin 3) :
    ((cfg0.win 8).blk t).view.emb (ix3 p l o) = (ix3 (brow t p) l o : S16384x4x3.Idx) := by
  obtain ⟨e00, e01, e02, e10, e11, e20, e21, e30, e31, e40, e41, e50, e60, e61, e70, e80, e81, e82⟩ := idx_facts t
  refine funext fun a => Fin.ext ?_
  match a with
  | ⟨0, _⟩ => show win0_8.index t (0 : Fin 3) * 256 + 1 * p.val = 256 * t.val + p.val; omega
  | ⟨1, _⟩ => show win0_8.index t (1 : Fin 3) * 4 + 1 * l.val = l.val; omega
  | ⟨2, _⟩ => show win0_8.index t (2 : Fin 3) * 3 + 1 * o.val = o.val; omega

/-- The specification at an index, spelt out. -/
theorem head_preK_apply (wenc : S16384x4x1024.Idx → EReal) (valid : S16384x4.Idx → EReal) (ohm : S65536x4.Idx → EReal)
    (R1 : S4x512.Idx → EReal) (W1 : S1024x512.Idx → EReal) (b1 : S512.Idx → EReal) (W2 : S512x3.Idx → EReal)
    (b2 : S3.Idx → EReal) (b : Fin 16384) (l : Fin 4) (o : Fin 3) :
    head (preK wenc valid ohm R1 W1) b1 W2 b2 (ix3 b l o)
      = (∑ h : Fin 512, Ideal.tanh (((∑ k : Fin 1024, (wenc (ix3 b l k) * valid (ix2 b l)) * W1 (ix2 k h))
            + ∑ r : Fin 4, ohm (ix2 (flatRow b l) r) * R1 (ix2 r h)) + b1 (ix1 h)) * W2 (ix2 h o))
        + b2 (ix1 o) := rfl

/-- WHAT POINT `t` WRITES BACK is block `t` of `G`. -/
theorem flushed_eq (c : Dev nD) (t : Fin cfg0.N) :
    (dats m 0 c).flushed 8 t = ((cfg0.win 8).blk t).view.read (Elt Ideal) (G m c) := by
  rw [Value.flushed8]
  unfold out0_8
  rw [View.canon_unit_zero hz3]
  simp only [View.ld_unit_zero (S := S256x4x1024) hz3, View.ld_unit_zero (S := S256x4) hz2,
    View.ld_unit_zero (S := S1024x512) hz2, View.ld_unit_zero (S := S1024x4) hz2, View.ld_unit_zero (S := S4x512) hz2,
    View.ld_unit_zero (S := S512) hz1, View.ld_unit_zero (S := S512x3) hz2, View.ld_unit_zero (S := S3) hz1]
  refine funext fun (j : S256x4x3.Idx) => ?_
  obtain ⟨p, l, o, rfl⟩ : ∃ (p : Fin 256) (l : Fin 4) (o : Fin 3), j = ix3 p l o := ⟨j 0, j 1, j 2, eq_ix3 j⟩
  show k0_pay1 (F := Ideal) (iblk m c 0 t) (iblk m c 1 t) (iblk m c 4 t) (iblk m c 2 t) (iblk m c 3 t) (iblk m c 5 t) (iblk m c 6 t)
        (iblk m c 7 t) (ix3 p l o) = G m c (((cfg0.win 8).blk t).view.emb (ix3 p l o))
  refine (pay_apply _ _ _ _ _ _ _ _ p l o).trans ?_
  rw [emb8 t p l o]
  refine Eq.trans ?_ (head_preK_apply _ _ _ _ _ _ _ _ (brow t p) l o).symm
  simp only [blk0_apply m c t, blk1_apply m c t, blk2_apply m c t, blk3_apply m c t, blk4_apply m c t, blk5_apply m c t,
    blk6_apply m c t, blk7_apply m c t, orow_row4]

/-- An index of the array is in point `t`'s block iff each coordinate is in the block's range on its axis. -/
theorem mem_blk (t : Fin cfg0.N) (i : S16384x4x3.Idx) :
    i ∈ ((cfg0.win 8).blk t).view.set ↔ ∀ a : Fin 3, win0_8.index t a * S256x4x3.size a ≤ (i a).val
      ∧ (i a).val < win0_8.index t a * S256x4x3.size a + S256x4x3.size a := by
  show i ∈ ((View.whole main_v33).slice (win0_8.rect t)).set ↔ _
  rw [View.set_slice_whole, Rect.mem_set_unit]
  exact Iff.rfl

/-- The 64 blocks tile the output: batch row `b` is in the block of point `b / 256`. -/
theorem cover (i : S16384x4x3.Idx) :
    ∃ t : Fin cfg0.N, (cfg0.win 8).flush t = true ∧ i ∈ ((cfg0.win 8).blk t).view.set := by
  have hi0 : (i 0).val < 16384 := (i 0).isLt
  have hi1 : (i 1).val < 4 := (i 1).isLt
  have hi2 : (i 2).val < 3 := (i 2).isLt
  have hN : cfg0.N = 64 := N_0
  obtain ⟨t, ht⟩ : ∃ t : Fin cfg0.N, t.val = (i 0).val / 256 := ⟨⟨(i 0).val / 256, by rw [hN]; omega⟩, rfl⟩
  obtain ⟨e00, e01, e02, e10, e11, e20, e21, e30, e31, e40, e41, e50, e60, e61, e70, e80, e81, e82⟩ := idx_facts t
  refine ⟨t, flush0_8 t, ?_⟩
  rw [mem_blk]
  intro a
  match a with
  | ⟨0, _⟩ => show win0_8.index t (0 : Fin 3) * 256 ≤ (i 0).val ∧ (i 0).val < win0_8.index t (0 : Fin 3) * 256 + 256; omega
  | ⟨1, _⟩ => show win0_8.index t (1 : Fin 3) * 4 ≤ (i 1).val ∧ (i 1).val < win0_8.index t (1 : Fin 3) * 4 + 4; omega
  | ⟨2, _⟩ => show win0_8.index t (2 : Fin 3) * 3 ≤ (i 2).val ∧ (i 2).val < win0_8.index t (2 : Fin 3) * 3 + 3; omega

/-- THE OUTPUT ARRAY after the run: the shared head over the kernel's pre-activation, of the arrays the region finds. -/
theorem final (m : (ℓ : Loc nD τ sig) → Buf (Elt Ideal) ℓ) (c : Dev nD) :
    ((dats m 0 c).arrAt 8 cfg0.N : S16384x4x3.Idx → EReal)
      = head (preK (V m c main_arg0) (V m c main_v20) (V m c main_v28) (V m c main_v30) (V m c main_v31))
          (V m c main_arg3) (V m c main_v32) (V m c main_arg5) :=
  (dats m 0 c).arrAt_eq_of_cover 8 (G m c) (fun t _ => flushed_eq m c t) cover

end Cert.RepeatMlp.KernelValue

end
-- ==== Proof.RepGlue.lean ====
/- Two integer-side facts about the reference's host operations.

   The reference counts, for every row `b` and position `i < 4` of the integer array `wc : [16384, 4]`, how many
   earlier positions `j < i` of the same row hold the same word: `rep(b, i) = ∑ j : Fin 4, [wc(b,i) = wc(b,j) ∧ j < i]`,
   each summand a one-bit word zero-extended to 32 bits, the sum taken by a `stablehlo.reduce` with body `add` from 0.
   Position `j = 3` is never earlier than any `i < 4`, and every summand is 0 or 1, so `rep(b, i) ≤ 3` (`rep_le`).

   It then reads row `rep(b, i)` of a `[4, 1024]` table by a `stablehlo.gather`: the element at `(b, i, k)` is the table's
   element `(r, k)` with `r` the start index at `(b, i, 0)` read signed and clamped into `[0, 3]` (`gather_apply`). -/
import proofs.«117219_j26121991094405_2_alg».proof.Proof.RefRead
import Idealize.ShloMosaic.Lib.ValueIdx
import Idealize.ShloMosaic.Lib.Pipeline.Value
import Idealize.ShloMosaic.PureOps.Reduce

noncomputable section

namespace Cert.RepeatMlp.RepGlue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## The count of earlier equal positions is at most 3 -/

/-- A wrapping sum of 32-bit words from 0, read unsigned, is at most the sum of the words read unsigned. -/
theorem toNat_fold_addi_le {ι : Type} [DecidableEq ι] (s : Finset ι) (f : ι → BitVec 32) :
    (s.fold IntOp.addi 0#32 f).toNat ≤ ∑ k ∈ s, (f k).toNat := by
  induction s using Finset.induction_on with
  | empty => simp
  | insert a s ha ih =>
    rw [Finset.fold_insert ha, Finset.sum_insert ha]
    show (f a + _).toNat ≤ _
    rw [BitVec.toNat_add]
    exact (Nat.mod_le _ _).trans (Nat.add_le_add_left ih _)

/-- A one-bit word zero-extended to 32 bits is 0 or 1. -/
theorem toNat_extui_le_one (w : BitVec 1) : (w.setWidth 32).toNat ≤ 1 := by
  rw [BitVec.toNat_setWidth]; have := w.isLt; omega

/-- The lower-triangle comparison `l + (−1) ≥ 3` (signed) fails for every `l < 4`: column 3 is never strictly below
    the diagonal. -/
theorem tril_last (l : Fin 4) : val_main_call0_v4 (F := Ideal) (ix2 l (3 : Fin 4)) = 0#1 := by
  rw [val_main_call0_v4_apply, val_main_call0_v2_apply, val_main_call0_v0_apply, val_main_call0_v1_apply,
    val_main_call0_c_apply, val_main_call0_v3_apply]
  fin_cases l <;> decide

/-- So the strict-lower-triangle mask, broadcast over the rows, is `false` at `(b, l, 3)`. -/
theorem tril_word_last (b : Fin 16384) (l : Fin 4) : val_main_v8 (F := Ideal) (ix3 b l (3 : Fin 4)) = 0#1 := by
  rw [val_main_v8_apply, val_main_v7_apply, val_main_v6_apply]
  have e : idx_main_v7 (idx_main_v8 (ix3 b l (3 : Fin 4))) = ix2 l (3 : Fin 4) := by
    funext a; match a with | ⟨0, _⟩ => rfl | ⟨1, _⟩ => rfl
  rw [e, tril_last, select_zero, val_main_call0_v5_apply, val_main_call0_c_0_apply]

/-- Every summand of the count is 0 or 1. -/
theorem summand_le_one (x7 : (⟨S16384x4, .i32⟩ : BufTy).Contents (Elt Ideal)) (i : S16384x4x4.Idx) :
    (val_main_v10 (F := Ideal) x7 i).toNat ≤ 1 := by
  rw [val_main_v10_apply]; exact toNat_extui_le_one _

/-- The summand at `j = 3` is 0: the mask is `false` there. -/
theorem summand_last (x7 : (⟨S16384x4, .i32⟩ : BufTy).Contents (Elt Ideal)) (b : Fin 16384) (l : Fin 4) :
    (val_main_v10 (F := Ideal) x7 (ix3 b l (3 : Fin 4))).toNat = 0 := by
  rw [val_main_v10_apply, val_main_v9_apply, tril_word_last]
  show ((_ &&& 0#1 : BitVec 1).setWidth 32).toNat = 0
  rw [BitVec.and_zero]; rfl

/-- `rep(b, l) ≤ 3`: the reduce over the last axis is the wrapping sum over `j : Fin 4` of the summands at `(b, l, j)`;
    three of them are at most 1 and the one at `j = 3` is 0. -/
theorem rep_le (x7 : (⟨Cert.ReferenceIdeal.S16384x4, .i32⟩ : BufTy).Contents (Elt Ideal)) (b : Fin 16384) (l : Fin 4) :
    (Cert.ReferenceIdeal.Read.val_main_v11 (F := Ideal) x7 (ValueIdx.ix2 b l)).toNat ≤ 3 := by
  have hR : Shape.Reduces S16384x4x4 [2] S16384x4 := by decide
  -- the source index over `(b, l)` with `k` on the reduced axis is `(b, l, k)`
  have hl : ∀ k : Fin 4, hR.lift (ix2 b l) k = ix3 b l k := by
    intro k; funext a; apply Fin.ext
    match a with | ⟨0, _⟩ => rfl | ⟨1, _⟩ => rfl | ⟨2, _⟩ => rfl
  unfold val_main_v11
  rw [Host.reduce_eq_fold_single IntOp.addi _ _ Facts₀.reducesTo_S16384x4x4_S16384x4_d2 hR Facts₀.h_S_ (ix2 b l)]
  rw [val_main_c_0_apply]
  have hg : (val_main_v10 (F := Ideal) x7 ∘ hR.lift (ix2 b l))
      = fun k : Fin 4 => val_main_v10 (F := Ideal) x7 (ix3 b l k) :=
    funext fun k => congrArg (val_main_v10 (F := Ideal) x7) (hl k)
  rw [hg]
  refine (toNat_fold_addi_le _ _).trans ?_
  show (∑ k : Fin 4, (val_main_v10 (F := Ideal) x7 (ix3 b l k)).toNat) ≤ 3
  rw [Fin.sum_univ_four]
  have h0 := summand_le_one x7 (ix3 b l (0 : Fin 4))
  have h1 := summand_le_one x7 (ix3 b l (1 : Fin 4))
  have h2 := summand_le_one x7 (ix3 b l (2 : Fin 4))
  have h3 := summand_last x7 b l
  omega

/-! ## The gather read at an index

The operand is `[4, 1024]`, the start indices `[16384, 4, 1]` with the index vector on the last axis (one component,
for operand axis 0), the slice `1 × 1024`. Operand axis 0 is collapsed: its coordinate is the start index read signed
and clamped into `[0, 4 − 1]`, with no batching and no offset part. Operand axis 1 is the one offset axis: the start
index map does not name it, so its slice starts at 0, and its coordinate is the result's coordinate on axis 2. -/

theorem gather_apply (x1 : (⟨Cert.ReferenceIdeal.S4x1024, .f32⟩ : BufTy).Contents (Elt Ideal))
    (idx : (⟨Cert.ReferenceIdeal.S16384x4x1, .i32⟩ : BufTy).Contents (Elt Ideal)) (b : Fin 16384) (l : Fin 4) (k : Fin 1024) :
    Host.gather Cert.ReferenceIdeal.gather_S4x1024_S16384x4x1_S16384x4x1024_2_0_n_n_0_2_11024 x1 idx (ValueIdx.ix3 b l k)
      = x1 (ValueIdx.ix2 ⟨min (idx (ValueIdx.ix3 b l 0)).toInt.toNat 3, by omega⟩ k) := by
  unfold Host.gather
  congr 1
  funext a
  refine Fin.ext ?_
  match a with
  | ⟨0, _⟩ =>
    -- axis 0: the clamped start index alone
    show gather_S4x1024_S16384x4x1_S16384x4x1024_2_0_n_n_0_2_11024.start (ix3 b l k) idx 0
      + gather_S4x1024_S16384x4x1_S16384x4x1024_2_0_n_n_0_2_11024.batchCoord (ix3 b l k) 0
      + gather_S4x1024_S16384x4x1_S16384x4x1024_2_0_n_n_0_2_11024.offCoord (ix3 b l k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S4x1024_S16384x4x1_S16384x4x1024_2_0_n_n_0_2_11024.startIndexMap
      from List.mem_singleton.mpr rfl)]
    -- the start index's one component is read at `(b, l, 0)`
    have hsi : gather_S4x1024_S16384x4x1_S16384x4x1024_2_0_n_n_0_2_11024.siIdx (ix3 b l k)
        ⟨List.idxOf (0 : Fin 2) gather_S4x1024_S16384x4x1_S16384x4x1024_2_0_n_n_0_2_11024.startIndexMap,
          List.idxOf_lt_length_iff.2 (List.mem_singleton.mpr rfl)⟩ = ix3 b l 0 := by
      funext c; refine Fin.ext ?_
      match c with
      | ⟨0, _⟩ => rfl
      | ⟨1, _⟩ => rfl
      | ⟨2, _⟩ => rfl
    rw [hsi]
    rfl
  | ⟨1, _⟩ =>
    -- axis 1: start 0, no batching, the offset coordinate `k`
    show gather_S4x1024_S16384x4x1_S16384x4x1024_2_0_n_n_0_2_11024.start (ix3 b l k) idx 1
      + gather_S4x1024_S16384x4x1_S16384x4x1024_2_0_n_n_0_2_11024.batchCoord (ix3 b l k) 1
      + gather_S4x1024_S16384x4x1_S16384x4x1024_2_0_n_n_0_2_11024.offCoord (ix3 b l k) 1 = _
    rw [GatherDims.batchCoord_eq_zero _ _ _ List.not_mem_nil]
    have hs : gather_S4x1024_S16384x4x1_S16384x4x1024_2_0_n_n_0_2_11024.start (ix3 b l k) idx 1 = 0 := by
      unfold GatherDims.start
      rw [dif_neg (show (1 : Fin 2) ∉ gather_S4x1024_S16384x4x1_S16384x4x1024_2_0_n_n_0_2_11024.startIndexMap from by decide)]
    rw [hs]
    simp only [Nat.add_zero, Nat.zero_add]
    have hk : (1 : Fin 2) ∈ gather_S4x1024_S16384x4x1_S16384x4x1024_2_0_n_n_0_2_11024.sKept :=
      (GatherDims.mem_sKept _ _).mpr ⟨by decide, List.not_mem_nil⟩
    unfold GatherDims.offCoord
    rw [dif_pos hk]
    rfl

end Cert.RepeatMlp.RepGlue

end
-- ==== Proof.Algebra.lean ====
/-
  The algebra that joins the two sides, on the extended reals.
  * A 0/1 word as a float is 0 or 1.
  * A one-hot row times a matrix selects one row of it.
  * (a + b) · w = a · w + b · w under a finite sum when every entry is a real number (on the extended reals
    distributivity fails at the infinities, so this is where the finiteness of the inputs is used).
  * A repeat count that is at most 3 is never negative, indexes the four-row table without clamping, and equals
    exactly one of the four one-hot columns.
-/
import Idealize.ShloMosaic.PureOps.Ideal.Laws
import Idealize.ShloMosaic.Lib.ValueIdx

noncomputable section

namespace Cert.RepeatMlp.Algebra

open Idealize.ShloMosaic Idealize.ShloMosaic.ValueIdx

/-- A one-bit word is 0 or 1. -/
theorem bit_cases (b : BitVec 1) : b = 0#1 ∨ b = 1#1 := by
  by_cases h : b = 1#1
  · exact Or.inr h
  · exact Or.inl (eq_zero_of_ne_one h)

/-- The word 1 as an unsigned float is 1; the word 0 is 0. -/
theorem uitofp_one : FloatOps.uitofp (F := Ideal) .f32 (1#1 : BitVec 1) = (1 : EReal) := by
  show (((1#1 : BitVec 1).toNat : ℝ) : EReal) = 1
  simp
theorem uitofp_zero : FloatOps.uitofp (F := Ideal) .f32 (0#1 : BitVec 1) = (0 : EReal) := by
  show (((0#1 : BitVec 1).toNat : ℝ) : EReal) = 0
  simp

/-- A 32-bit word whose unsigned value is at most 3 is one of 0, 1, 2, 3. -/
theorem small_cases (x : BitVec 32) (h : x.toNat ≤ 3) : x = 0#32 ∨ x = 1#32 ∨ x = 2#32 ∨ x = 3#32 := by
  have h0 : x.toNat = 0 ∨ x.toNat = 1 ∨ x.toNat = 2 ∨ x.toNat = 3 := by omega
  rcases h0 with h0 | h0 | h0 | h0
  · exact Or.inl (BitVec.eq_of_toNat_eq h0)
  · exact Or.inr (Or.inl (BitVec.eq_of_toNat_eq h0))
  · exact Or.inr (Or.inr (Or.inl (BitVec.eq_of_toNat_eq h0)))
  · exact Or.inr (Or.inr (Or.inr (BitVec.eq_of_toNat_eq h0)))

/-- Such a count, normalised as a (possibly negative) index into a table of four rows and clamped to it, is itself. -/
theorem index_of_small (x : BitVec 32) (h : x.toNat ≤ 3) :
    min (Scalar.select (IntOp.cmpi .slt x 0#32) (IntOp.addi x 4#32) x).toInt.toNat 3 = x.toNat := by
  rcases small_cases x h with rfl | rfl | rfl | rfl <;> decide

/-- Column r of the one-hot row of such a count is 1 exactly when r is the count. -/
theorem onehot_of_small (x : BitVec 32) (h : x.toNat ≤ 3) (r : Fin 4) :
    FloatOps.uitofp (F := Ideal) .f32 (IntOp.cmpi .eq x (BitVec.ofNat 32 r.val))
      = if r.val = x.toNat then (1 : EReal) else 0 := by
  have e : IntOp.cmpi .eq x (BitVec.ofNat 32 r.val) = if r.val = x.toNat then 1#1 else 0#1 := by
    rcases small_cases x h with rfl | rfl | rfl | rfl <;> clear h <;> fin_cases r <;> decide
  rw [e]
  split
  · exact uitofp_one
  · exact uitofp_zero

/-- A one-hot row selects one term of a sum. -/
theorem sum_onehot_mul (n : ℕ) (hn : n < 4) (f : Fin 4 → EReal) :
    ∑ r : Fin 4, (if r.val = n then (1 : EReal) else 0) * f r = f ⟨n, hn⟩ := by
  have e : ∀ r : Fin 4, (r.val = n) = (r = ⟨n, hn⟩) := fun r => propext ⟨fun e => Fin.ext e, fun e => by rw [e]⟩
  simp only [e]
  simp [ite_mul]

/-- Over real entries, a sum of (a + b) · w splits. -/
theorem sum_add_mul {K : Type} [Fintype K] (a b w : K → EReal)
    (ha : ∀ k, ∃ r : ℝ, a k = (r : EReal)) (hb : ∀ k, ∃ r : ℝ, b k = (r : EReal)) (hw : ∀ k, ∃ r : ℝ, w k = (r : EReal)) :
    ∑ k, (a k + b k) * w k = ∑ k, a k * w k + ∑ k, b k * w k := by
  rw [← Finset.sum_add_distrib]
  refine Finset.sum_congr rfl fun k _ => ?_
  obtain ⟨x, hx⟩ := ha k
  obtain ⟨y, hy⟩ := hb k
  obtain ⟨z, hz⟩ := hw k
  rw [hx, hy, hz, ← EReal.coe_add, ← EReal.coe_mul, ← EReal.coe_mul, ← EReal.coe_mul, ← EReal.coe_add, add_mul]

/-- The first layer's pre-activation at one position and one hidden unit, formed the kernel's way and the reference's
    way, from one input row `xr`, the four rows `rp` of the repeat table, one column `w` of the weights, the validity
    word `vb`, the word `gt` "the repeat count is positive" and the count `rep` itself (at most 3; `ρ` is the row the
    reference gathers): where the position is invalid both are 0; where the count is not positive both are ∑ xr · w; else
    the one-hot row picks row `rep` of `rp · w`, and ∑ xr · w + ∑ rp(rep) · w = ∑ (xr + rp(rep)) · w over the reals. -/
theorem fold_eq (xr w : Fin 1024 → EReal) (rp : Fin 4 → Fin 1024 → EReal) (vb gt : BitVec 1) (rep : BitVec 32)
    (hrep : rep.toNat ≤ 3) (ρ : Fin 4)
    (hρ : ρ.val = min (Scalar.select (IntOp.cmpi .slt rep 0#32) (IntOp.addi rep 4#32) rep).toInt.toNat 3)
    (hx : ∀ k, ∃ r : ℝ, xr k = (r : EReal)) (hrp : ∀ r k, ∃ s : ℝ, rp r k = (s : EReal)) (hw : ∀ k, ∃ r : ℝ, w k = (r : EReal)) :
    (∑ k, (xr k * FloatOps.uitofp (F := Ideal) .f32 vb) * w k)
        + ∑ r : Fin 4, (FloatOps.uitofp (F := Ideal) .f32 (IntOp.cmpi .eq rep (BitVec.ofNat 32 r.val))
            * FloatOps.uitofp (F := Ideal) .f32 (IntOp.andi gt vb)) * ∑ k, rp r k * w k
      = ∑ k, Scalar.select vb (xr k + Scalar.select gt (rp ρ k) 0) 0 * w k := by
  have hρ' : ρ = ⟨rep.toNat, Nat.lt_succ_of_le hrep⟩ := Fin.ext (hρ.trans (index_of_small rep hrep))
  subst hρ'
  rcases bit_cases vb with rfl | rfl
  · have e : IntOp.andi gt 0#1 = 0#1 := by rcases bit_cases gt with rfl | rfl <;> rfl
    simp only [e, uitofp_zero, select_zero, mul_zero, zero_mul, Finset.sum_const_zero, add_zero]
  · rcases bit_cases gt with rfl | rfl
    · have e : IntOp.andi 0#1 1#1 = 0#1 := rfl
      simp only [e, uitofp_zero, uitofp_one, select_one, select_zero, mul_one, mul_zero, zero_mul, Finset.sum_const_zero, add_zero]
    · have e : IntOp.andi 1#1 1#1 = 1#1 := rfl
      simp only [e, uitofp_one, select_one, mul_one, onehot_of_small rep hrep]
      rw [sum_onehot_mul rep.toNat (Nat.lt_succ_of_le hrep) (fun r => ∑ k, rp r k * w k)]
      exact (sum_add_mul xr (rp ⟨rep.toNat, Nat.lt_succ_of_le hrep⟩) w hx (hrp _) hw).symm

end Cert.RepeatMlp.Algebra

end
-- ==== Proof.Bridge.lean ====
/-
  The two pre-activations are one function. At batch row b, position l and hidden unit h the kernel forms
  ∑ k, (wenc(b,l,k) · valid(b,l)) · W1(k,h) + ∑ r, ohm(4b+l, r) · R1(r,h), the reference ∑ k, x(b,l,k) · W1(k,h) with x its
  masked and shifted input. Given what the mask, the one-hot table and R1 hold (as words of the integer stages both
  programs compute), that the repeat count is at most 3, and that the inputs are real numbers, the two agree: the law is
  distributivity over the reals, case by case on the validity word and on the word "the count is positive".
-/
import proofs.«117219_j26121991094405_2_alg».proof.Proof.RefValue
import proofs.«117219_j26121991094405_2_alg».proof.Proof.RepGlue
import proofs.«117219_j26121991094405_2_alg».proof.Proof.Algebra

noncomputable section

namespace Cert.RepeatMlp.Bridge

open Cert.ReferenceIdeal Cert.ReferenceIdeal.Gen Cert.ReferenceIdeal.Read Cert.RepeatMlp
open Idealize.ShloMosaic Idealize.ShloMosaic.TcCoe Idealize.SL.Sem Idealize.ShloMosaic.ValueIdx

variable (x0 : (⟨S16384x4x1024, .f32⟩ : BufTy).Contents (Elt Ideal)) (x1 : (⟨S4x1024, .f32⟩ : BufTy).Contents (Elt Ideal))
  (x2 : (⟨S1024x512, .f32⟩ : BufTy).Contents (Elt Ideal))
  (x6 : (⟨S16384, .i32⟩ : BufTy).Contents (Elt Ideal)) (x7 : (⟨S16384x4, .i32⟩ : BufTy).Contents (Elt Ideal))

theorem idx20 (b : Fin 16384) (l : Fin 4) : idx_main_v20 (ix3 b l (0 : Fin 1)) = ix2 b l :=
  funext fun a => Fin.ext (by match a with | ⟨0, _⟩ => rfl | ⟨1, _⟩ => rfl)

/-- The index the reference gathers the repeat table with: the repeat count, wrapped if negative. -/
theorem gather_index (b : Fin 16384) (l : Fin 4) :
    val_main_v20 (F := Ideal) x7 (ix3 b l (0 : Fin 1))
      = Scalar.select (IntOp.cmpi .slt (val_main_v11 (F := Ideal) x7 (ix2 b l)) 0#32)
          (IntOp.addi (val_main_v11 (F := Ideal) x7 (ix2 b l)) 4#32) (val_main_v11 (F := Ideal) x7 (ix2 b l)) := by
  rw [val_main_v20_apply, idx20, val_main_v19_apply, val_main_v16_apply, val_main_v18_apply, val_main_v15_apply,
    val_main_v17_apply, val_main_c_2_apply, val_main_c_3_apply]

-- the integer stages stay closed below: they are used only through the lemmas above
attribute [local irreducible] val_main_v11 val_main_v13 val_main_v28 val_main_v20

/-- The kernel's pre-activation, from a mask, a one-hot table and a small matrix that hold what the host operations
    write, is the reference's. -/
theorem pre_eq (valid : (⟨2, ![16384, 4]⟩ : Shape).Idx → EReal) (ohm : (⟨2, ![65536, 4]⟩ : Shape).Idx → EReal)
    (R1 : (⟨2, ![4, 512]⟩ : Shape).Idx → EReal)
    (hv : ∀ (b : Fin 16384) (l : Fin 4), valid (ix2 b l) = FloatOps.uitofp (F := Ideal) .f32 (val_main_v28 (F := Ideal) x6 (ix2 b l)))
    (ho : ∀ (b : Fin 16384) (l : Fin 4) (r : Fin 4), ohm (ix2 (flatRow b l) r)
      = FloatOps.uitofp (F := Ideal) .f32 (IntOp.cmpi .eq (val_main_v11 (F := Ideal) x7 (ix2 b l)) (BitVec.ofNat 32 r.val))
        * FloatOps.uitofp (F := Ideal) .f32 (IntOp.andi (val_main_v13 (F := Ideal) x7 (ix2 b l)) (val_main_v28 (F := Ideal) x6 (ix2 b l))))
    (hr : ∀ (r : Fin 4) (h : Fin 512), R1 (ix2 r h) = ∑ k : Fin 1024, x1 (ix2 r k) * x2 (ix2 k h))
    (h0 : ∀ i, ∃ r : ℝ, x0 i = (r : EReal)) (h1 : ∀ i, ∃ r : ℝ, x1 i = (r : EReal)) (h2 : ∀ i, ∃ r : ℝ, x2 i = (r : EReal)) :
    preK x0 valid ohm R1 x2 = preR (val_main_v31 (F := Ideal) x0 x1 x6 x7) x2 := by
  funext b l h
  unfold preK preR
  simp only [hv, ho, hr, RefValue.masked_input_apply]
  have hg : ∀ k : Fin 1024, val_main_v21 (F := Ideal) x1 x7 (ix3 b l k)
      = x1 (ix2 (⟨min (val_main_v20 (F := Ideal) x7 (ix3 b l (0 : Fin 1))).toInt.toNat 3, by omega⟩ : Fin 4) k) := fun k => by
    unfold val_main_v21
    exact RepGlue.gather_apply x1 (val_main_v20 (F := Ideal) x7) b l k
  simp only [hg]
  exact Algebra.fold_eq (fun k => x0 (ix3 b l k)) (fun k => x2 (ix2 k h)) (fun r k => x1 (ix2 r k))
    (val_main_v28 (F := Ideal) x6 (ix2 b l)) (val_main_v13 (F := Ideal) x7 (ix2 b l)) (val_main_v11 (F := Ideal) x7 (ix2 b l))
    (RepGlue.rep_le x7 b l)
    ⟨min (val_main_v20 (F := Ideal) x7 (ix3 b l (0 : Fin 1))).toInt.toNat 3, Nat.lt_succ_of_le (Nat.min_le_right _ _)⟩
    (congrArg (fun t : BitVec 32 => min t.toInt.toNat 3) (gather_index x7 b l))
    (fun k => h0 _) (fun r k => h1 _) (fun k => h2 _)

end Cert.RepeatMlp.Bridge

end
-- ==== Proof.Finite.lean ====
/-
  From the precondition to real numbers. The precondition says that, on every device, the conjunction of six tests
  "every entry x of the array has |x| < +∞" (one test per float argument) is true. On the extended reals |x| is
  max x (-x), and max x (-x) < ⊤ fails at x = ⊤ and at x = ⊥, so every entry of every float argument is a real number.
  Stated here for the three arguments the first layer reads: the input rows, the repeat table and the first weight matrix.
-/
import proofs.«117219_j26121991094405_2_alg».proof.Defs
import Idealize.ShloMosaic.Lib.ReduceAll
import Idealize.ShloMosaic.Lib.ValueIdx
import Idealize.ShloMosaic.PureOps.Ideal.Laws

noncomputable section

namespace Cert.RepeatMlp.Finite

open Idealize.ShloMosaic Idealize.SL.Sem

/-- The scalar shape has exactly one index. -/
instance : Subsingleton Cert.Pre_finite_inputs.S_.Idx := ⟨fun a b => funext fun d => d.elim0⟩

/-- An extended real whose absolute value max x (-x) lies strictly below the f32 pattern of +∞ (which denotes ⊤)
    is a real number: at ⊥ and at ⊤ the absolute value is ⊤, which is not below ⊤. -/
theorem real_of_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of the first three argument arrays is a real number. The precondition's value at
    the one scalar index is a conjunction of six "all entries pass" reductions; each of the first three gives the
    entrywise test |x| < +∞ at every index, and the test makes the entry real. -/
theorem real_of_pre [Cert.Pre_finite_inputs.Facts]
    (m : (ℓ : Loc Cert.KernelIdeal.nD Cert.KernelIdeal.τ Cert.KernelIdeal.sig) → Buf (Elt Ideal) ℓ) (hpre : Cert.Pre_KernelIdeal m)
    (c : Dev Cert.KernelIdeal.nD) :
    (∀ i, ∃ r : ℝ, (m ((c.tc : Thread Cert.KernelIdeal.nD Cert.KernelIdeal.τ).loc Cert.KernelIdeal.main_arg0) : Cert.KernelIdeal.S16384x4x1024.Idx → EReal) i = (r : EReal))
    ∧ (∀ i, ∃ r : ℝ, (m ((c.tc : Thread Cert.KernelIdeal.nD Cert.KernelIdeal.τ).loc Cert.KernelIdeal.main_arg1) : Cert.KernelIdeal.S4x1024.Idx → EReal) i = (r : EReal))
    ∧ (∀ i, ∃ r : ℝ, (m ((c.tc : Thread Cert.KernelIdeal.nD Cert.KernelIdeal.τ).loc Cert.KernelIdeal.main_arg2) : Cert.KernelIdeal.S1024x512.Idx → EReal) i = (r : EReal)) := by
  have e := congrFun (hpre c) ValueIdx.ix0
  dsimp only [Cert.Pre_finite_inputs.fn, Cert.Pre_finite_inputs.fn_part1] at e
  -- a conjunction of one-bit words is 1 exactly when each word is
  simp only [andi, IntOp.andi_eq_one] at e
  obtain ⟨⟨⟨⟨⟨h0, h1⟩, h2⟩, -⟩, -⟩, -⟩ := e
  -- a reduction by "and" over all axes that is 1 met a 1 at every index
  refine ⟨fun i => ?_, fun i => ?_, fun i => ?_⟩
  · exact real_of_lt_inf _ (Host.reduce_andi_all _ _ _ _ _ h0 i)
  · exact real_of_lt_inf _ (Host.reduce_andi_all _ _ _ _ _ h1 i)
  · exact real_of_lt_inf _ (Host.reduce_andi_all _ _ _ _ _ h2 i)

end Cert.RepeatMlp.Finite

end
-- ==== Proof.lean ====
/-
  The certificate of a per-position two-layer head (1024 → 512 → 3, tanh between) over 16384 rows of 4 positions.
  The reference masks each input row to the valid positions, adds to it one row of a four-row "repeat" table chosen by how
  many earlier positions of the row carry the same code (nothing when that count is zero), and applies the head. The
  kernel never forms the shifted input: it multiplies the input by the 0/1 validity mask, sends a masked one-hot row of
  the count through the small matrix repeat · W1, and adds the two products before the bias and tanh.

  On the extended reals the two agree because (a + b) · w = a · w + b · w for real a, b, w — which is where the
  precondition (every float input finite) is used: distributivity fails at the infinities — and because the count is
  at most 3, so that the reference's gather reads row "count" of the table and exactly one one-hot column is 1.

  The pieces: the kernel's output array as one function of what the region finds in its arrays (KernelValue), what the
  host operations before the region put there (KernelHost), the reference's result read stage by stage (RefValue, over
  the generated stage lemmas), the integer facts about the count and the gather (RepGlue), finiteness from the
  precondition (Finite), the algebra (Algebra, Bridge). The three frame claims are the generated frames (the
  reference's is its run with the result dropped); no rewrite was applied in idealizing the kernel, so that claim is trivial.
-/
import proofs.«117219_j26121991094405_2_alg».proof.Defs
import proofs.«117219_j26121991094405_2_alg».proof.Proof.Gen.Kernel
import proofs.«117219_j26121991094405_2_alg».proof.Proof.Gen.Kernel.Frame
import proofs.«117219_j26121991094405_2_alg».proof.Proof.Gen.KernelIdeal
import proofs.«117219_j26121991094405_2_alg».proof.Proof.Gen.KernelIdeal.Frame
import proofs.«117219_j26121991094405_2_alg».proof.Proof.Gen.KernelIdeal.Value
import proofs.«117219_j26121991094405_2_alg».proof.Proof.Gen.ReferenceIdeal
import proofs.«117219_j26121991094405_2_alg».proof.Proof.Gen.Pre_finite_inputs
import proofs.«117219_j26121991094405_2_alg».proof.Proof.RefRun
import proofs.«117219_j26121991094405_2_alg».proof.Proof.RefRead
import proofs.«117219_j26121991094405_2_alg».proof.Proof.RefValue
import proofs.«117219_j26121991094405_2_alg».proof.Proof.KernelHost
import proofs.«117219_j26121991094405_2_alg».proof.Proof.KernelValue
import proofs.«117219_j26121991094405_2_alg».proof.Proof.Bridge
import proofs.«117219_j26121991094405_2_alg».proof.Proof.Finite
import Idealize.ShloMosaic.Adequacy
import Idealize.ShloMosaic.Init

noncomputable section

namespace Cert.Proof

open Idealize.ShloMosaic Idealize.SL.Sem Idealize.ShloMosaic.TcCoe Cert.RepeatMlp

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no rewrite to account for. -/
theorem preserves : Cert.preserves_Kernel_KernelIdeal := trivial

/-- Under the precondition, the head of the kernel's pre-activation over the arrays the region finds is the reference's
    last stage of the same argument arrays. -/
theorem kernel_value (m : (ℓ : Loc Cert.KernelIdeal.nD Cert.KernelIdeal.τ Cert.KernelIdeal.sig) → Buf (Elt Ideal) ℓ)
    (hpre : Cert.Pre_KernelIdeal m) (c : Dev Cert.KernelIdeal.nD) :
    head (preK (Cert.KernelIdeal.Gen.V m c Cert.KernelIdeal.main_arg0) (Cert.KernelIdeal.Gen.V m c Cert.KernelIdeal.main_v20)
          (Cert.KernelIdeal.Gen.V m c Cert.KernelIdeal.main_v28) (Cert.KernelIdeal.Gen.V m c Cert.KernelIdeal.main_v30)
          (Cert.KernelIdeal.Gen.V m c Cert.KernelIdeal.main_v31))
        (Cert.KernelIdeal.Gen.V m c Cert.KernelIdeal.main_arg3) (Cert.KernelIdeal.Gen.V m c Cert.KernelIdeal.main_v32)
        (Cert.KernelIdeal.Gen.V m c Cert.KernelIdeal.main_arg5)
      = Cert.ReferenceIdeal.Read.val_main_v40 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) := by
  obtain ⟨f0, f1, f2⟩ := Finite.real_of_pre m hpre c
  rw [RefValue.result_eq, Cert.KernelIdeal.Gen.V_main_arg0 m c, Cert.KernelIdeal.Gen.V_main_arg3 m c,
    Cert.KernelIdeal.Gen.V_main_arg5 m c, KernelHost.V_w1 m c, KernelHost.V_w2 m c]
  rw [Bridge.pre_eq _ (m ((c.tc : Thread Cert.KernelIdeal.nD Cert.KernelIdeal.τ).loc Cert.KernelIdeal.main_arg1)) _ (m ((c.tc : Thread Cert.KernelIdeal.nD Cert.KernelIdeal.τ).loc Cert.KernelIdeal.main_arg6)) (m ((c.tc : Thread Cert.KernelIdeal.nD Cert.KernelIdeal.τ).loc Cert.KernelIdeal.main_arg7)) _ _ _
    (KernelHost.valid_apply m c) (KernelHost.ohm_apply m c)
    (fun r h => by rw [KernelHost.V_r1, KernelHost.r1Of_apply]) f0 f1 f2]

/-- From memories agreeing on the arguments both idealized programs end with the same result array: the reference's last
    stage of the arguments (the kernel's by `kernel_value` over its value leg, the reference's by its run). -/
theorem algebraic : Cert.algebraic_KernelIdeal_ReferenceIdeal := by
  intro m ρ m' ρ' hpre hagree
  refine ⟨fun c => Cert.ReferenceIdeal.Read.val_main_v40 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)), ?_, ?_⟩
  · exact (θ_run Cert.KernelIdeal.defs _ _).mono
      (fun r h c => ⟨(h c).1.trans ((KernelValue.final m c).trans (kernel_value m hpre c)), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v40_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
